-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128x128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S4000x128 : Shape := ⟨2, ![4000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S128 : Shape := ⟨1, ![128]⟩

abbrev nBuf : Space → Nat
  | .hbm => 71
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000x128, .f32⟩
  | .hbm, ⟨10, _⟩ => ⟨S100000x128, .bf16⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .bf16⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .bf16⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .bf16⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .bf16⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .bf16⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S4000x128, .bf16⟩
  | .local _ .vmem, ⟨16, _⟩ => ⟨S4000x128, .bf16⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S128x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S1x128, .f32⟩
  | .local _ .vmem, ⟨30, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v12 : BitVec 1 := Scalar.cmpi .eq arg0 c24_i32
  let v13 : BitVec 32 := Scalar.extui v12
  let c0_i32_6 : BitVec 32 := 0#32
  let v14 : BitVec 1 := Scalar.cmpi .ne v13 c0_i32_6
  v14

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S4000x128_S4000x128_0_0 : (Rect.unit (s := S4000x128) ![0, 0] S4000x128.size inb_S4000x128_S4000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S4000x128_S128 : S4000x128.Reduces [0] S128
  shapeCasts_S128_S1x128 : S128.ShapeCasts S1x128
  shapeCasts_S1x128_S128 : S1x128.ShapeCasts S128
  dot_S4000x128_S128x128_S4000x128_1_1_0_0_n_n_wf : DotDims.WF S4000x128 S128x128 S4000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .bf16 = 32 ∨ (Rect.block (s := S100000x128) S4000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)

variable [Facts₀]

def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S4000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x128.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev idle3 : Fin 2 → grid3.Coords → Bool := fun | 0 => fun _ => false | 1 => fun i => !(k3_cond2 i == 1#1) | ⟨_ + 2, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128 : Shape := ⟨1, ![128]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S128x128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x128, .f32⟩
  | .hbm, ⟨105, _⟩ => ⟨S_, .f32⟩
  | .hbm, ⟨106, _⟩ => ⟨S100000x128, .f32⟩
  | .hbm, ⟨107, _⟩ => ⟨S1600000x1, .i32⟩
  | .hbm, ⟨108, _⟩ => ⟨S100000x128, .f32⟩
  | .hbm, ⟨109, _⟩ => ⟨S128x128, .f32⟩
  | .hbm, ⟨110, _⟩ => ⟨S100000x128, .f32⟩
  | .hbm, ⟨111, _⟩ => ⟨S100000x128, .f32⟩
  | .hbm, ⟨112, _⟩ => ⟨S128x128, .f32⟩
  | .hbm, ⟨113, _⟩ => ⟨S100000x128, .f32⟩
  | .hbm, ⟨114, _⟩ => ⟨S100000x128, .f32⟩
  | .hbm, ⟨115, _⟩ => ⟨S_, .f32⟩
  | .hbm, ⟨116, _⟩ => ⟨S100000x128, .f32⟩
  | .hbm, ⟨117, _⟩ => ⟨S100000x128, .f32⟩
  | .hbm, ⟨118, _⟩ => ⟨S_, .f32⟩
  | .hbm, ⟨119, _⟩ => ⟨S128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_cst : Ref sig .tc := ⟨.hbm, 45, rfl⟩
abbrev main_call0_v0 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call1_cst : Ref sig .tc := ⟨.hbm, 80, rfl⟩
abbrev main_call1_v0 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_14 : Ref sig .tc := ⟨.hbm, 96, rfl⟩
abbrev main_v71 : Ref sig .tc := ⟨.hbm, 97, rfl⟩
abbrev main_v72 : Ref sig .tc := ⟨.hbm, 98, rfl⟩
abbrev main_c_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_call2_cst : Ref sig .tc := ⟨.hbm, 115, rfl⟩
abbrev main_call2_v0 : Ref sig .tc := ⟨.hbm, 116, rfl⟩
abbrev main_v87 : Ref sig .tc := ⟨.hbm, 117, rfl⟩
abbrev main_cst_17 : Ref sig .tc := ⟨.hbm, 118, rfl⟩
abbrev main_v88 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S100000x128_S128_d0 : S100000x128.ReducesTo [0] S128
  h_S_ : 0 < S_.numel
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Region0.lean ====
/-
  The embedding call (the first of the four kernel launches), at any float instance and at any contents `V` of the
  buffers on entry. The grid has 25 points; point `t` takes rows [4000 t, 4000 t + 4000) of the node features (window 0)
  and the whole first weight matrix (window 1, brought in once), and writes the same rows of the product `x · w1ᵀ`
  (window 2) and of its positive part (window 3). Each output block is stored whole by one store, so what the body leaves
  in an output's buffer is that store's value, a function of the two input blocks alone; the inputs' buffers are left as
  found. From this: the per-point proof data, and the body's obligation at every point.
-/
import proofs.«149511_j13958643712644_2_alg».proof.Proof.KernelIdealLaunchP
import proofs.«149511_j13958643712644_2_alg».proof.Proof.Gen.KernelIdeal.Skeleton
import proofs.«149511_j13958643712644_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node-feature window's buffer holds its block at every point: it is fetched at every point and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole matrix at every point: fetched at the first point, its block index never
    moves afterwards and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rN0 : Rect S4000x128 := Rect.unit (s := S4000x128) ![0, 0] S4000x128.size inb_S4000x128_S4000x128_0_0
abbrev rW0 : Rect S128x128 := Rect.unit (s := S128x128) ![0, 0] S128x128.size inb_S128x128_S128x128_0_0

/-! ## What the body leaves in each output's buffer -/

/-- The product block: the one store into window 2's buffer, of the matrix product of the two loaded blocks. -/
def out0_2 (x0 : Vec F S4000x128 .f32) (x1 : Vec F S128x128 .f32) : Vec F S4000x128 .f32 :=
  View.canon [⟨rN0, k0_pay1 (View.ld x0 rN0) (View.ld x1 rW0)⟩]

/-- The positive-part block: the one store into window 3's buffer. -/
def out0_3 (x0 : Vec F S4000x128 .f32) (x1 : Vec F S128x128 .f32) : Vec F S4000x128 .bf16 :=
  View.canon [⟨rN0, k0_pay2 (View.ld x0 rN0) (View.ld x1 rW0)⟩]

/-- One whole-buffer store covers the buffer. -/
theorem cover0_2 (p0 : Vec F S4000x128 .f32) (y : S4000x128.Idx) :
    ∃ pc ∈ ([⟨rN0, p0⟩] : List (View.Piece (Elt F) S4000x128 .f32)), y ∈ pc.1.set :=
  View.cover_of_tiled [⟨rN0, p0⟩] S4000x128.size (by rfl) y
theorem cover0_3 (p0 : Vec F S4000x128 .bf16) (y : S4000x128.Idx) :
    ∃ pc ∈ ([⟨rN0, p0⟩] : List (View.Piece (Elt F) S4000x128 .bf16)), y ∈ pc.1.set :=
  View.cover_of_tiled [⟨rN0, p0⟩] S4000x128.size (by rfl) y

/-! ## The body's triple -/

set_option maxHeartbeats 1000000 in
/-- The body on whole buffers — the inputs' at contents `x0`, `x1`, the outputs' at anything — runs to the end leaving the
    inputs as they were and each output at its store's value. -/
theorem sound_kernel0 (c : Dev nD) (E : Set ℕ) (i : grid0.Coords) (arg1 : Memref sig .tc .vmem S4000x128 .f32) (harg1 : arg1.IsWhole)
    (arg2 : Memref sig .tc .vmem S128x128 .f32) (harg2 : arg2.IsWhole) (arg3 : Memref sig .tc .vmem S4000x128 .f32) (harg3 : arg3.IsWhole)
    (arg4 : Memref sig .tc .vmem S4000x128 .bf16) (harg4 : arg4.IsWhole)
    (x0 : Vec F S4000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The proof data -/

/-- On core `c`: the arrays as the call finds them; after the body at point `t` each input's buffer at its block and each
    output's at its store's value of the two input blocks; the invariant is the untouched rest; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the embedding call, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The first update call (the second of the four kernel launches), at any float instance and at any contents `V` of the
  buffers on entry. The grid has 25 points; point `t` takes rows [4000 t, 4000 t + 4000) of the embedding (window 0), of
  the incoming messages (window 1) and of the outgoing messages (window 2), and the whole second and third weight
  matrices (windows 3 and 4, each brought in once), and writes the same rows of the new state
  `max(xe + in · w2ᵀ + out · w3ᵀ, 0)` (window 5). The output block is stored whole by one store, so what the body leaves
  in its buffer is that store's value, a function of the five input blocks alone; the inputs' buffers are left as found.
-/
import proofs.«149511_j13958643712644_2_alg».proof.Proof.KernelIdealLaunchP
import proofs.«149511_j13958643712644_2_alg».proof.Proof.Gen.KernelIdeal.Skeleton
import proofs.«149511_j13958643712644_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not: unfetched, its block index has not
    moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, fetched there or not: unfetched, its block index has not
    moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, fetched there or not: unfetched, its block index has not
    moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds its block at every point, fetched there or not: unfetched, its block index has not
    moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's buffer holds its block at every point, fetched there or not: unfetched, its block index has not
    moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rN1 : Rect S4000x128 := Rect.unit (s := S4000x128) ![0, 0] S4000x128.size inb_S4000x128_S4000x128_0_0
abbrev rW1 : Rect S128x128 := Rect.unit (s := S128x128) ![0, 0] S128x128.size inb_S128x128_S128x128_0_0

/-! ## What the body leaves in the output's buffer -/

/-- The new state's block: the one store into window 5's buffer, a function of the five loaded blocks. -/
def out1_5 (x0 x1 x2 : Vec F S4000x128 .f32) (x3 x4 : Vec F S128x128 .f32) : Vec F S4000x128 .bf16 :=
  View.canon [⟨rN1, k1_pay1 (View.ld x0 rN1) (View.ld x1 rN1) (View.ld x2 rN1) (View.ld x3 rW1) (View.ld x4 rW1)⟩]

/-- One whole-buffer store covers the buffer. -/
theorem cover1_5 (p0 : Vec F S4000x128 .bf16) (y : S4000x128.Idx) :
    ∃ pc ∈ ([⟨rN1, p0⟩] : List (View.Piece (Elt F) S4000x128 .bf16)), y ∈ pc.1.set :=
  View.cover_of_tiled [⟨rN1, p0⟩] S4000x128.size (by rfl) y

/-! ## The body's triple -/

set_option maxHeartbeats 1000000 in
/-- The body on whole buffers — the inputs' at contents `x0 … x4`, the output's at anything — runs to the end leaving the
    inputs as they were and the output at its store's value. -/
theorem sound_kernel1 (c : Dev nD) (E : Set ℕ) (i : grid1.Coords) (arg1 : Memref sig .tc .vmem S4000x128 .f32) (harg1 : arg1.IsWhole)
    (arg2 : Memref sig .tc .vmem S4000x128 .f32) (harg2 : arg2.IsWhole) (arg3 : Memref sig .tc .vmem S4000x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S4000x128 .bf16) (harg6 : arg6.IsWhole)
    (x0 x1 x2 : Vec F S4000x128 .f32) (x3 x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__update_kernel i arg1 harg1 arg2 harg2 arg3 harg3 arg4 harg4 arg5 harg5 arg6 harg6) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data -/

/-- On core `c`: the arrays as the call finds them; after the body at point `t` each input's buffer at its block and the
    output's at its store's value of the five input blocks; the invariant is the untouched rest; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of this update call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
/-
  The second update call (the third of the four kernel launches), at any float instance and at any contents `V` of the
  buffers on entry. The grid has 25 points; point `t` takes rows [4000 t, 4000 t + 4000) of the embedding (window 0), of
  the incoming messages (window 1) and of the outgoing messages (window 2), and the whole second and third weight
  matrices (windows 3 and 4, each brought in once), and writes the same rows of the new state
  `max(xe + in · w2ᵀ + out · w3ᵀ, 0)` (window 5). The output block is stored whole by one store, so what the body leaves
  in its buffer is that store's value, a function of the five input blocks alone; the inputs' buffers are left as found.
-/
import proofs.«149511_j13958643712644_2_alg».proof.Proof.KernelIdealLaunchP
import proofs.«149511_j13958643712644_2_alg».proof.Proof.Gen.KernelIdeal.Skeleton
import proofs.«149511_j13958643712644_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, fetched there or not: unfetched, its block index has not
    moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's buffer holds its block at every point, fetched there or not: unfetched, its block index has not
    moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's buffer holds its block at every point, fetched there or not: unfetched, its block index has not
    moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's buffer holds its block at every point, fetched there or not: unfetched, its block index has not
    moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's buffer holds its block at every point, fetched there or not: unfetched, its block index has not
    moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev rN2 : Rect S4000x128 := Rect.unit (s := S4000x128) ![0, 0] S4000x128.size inb_S4000x128_S4000x128_0_0
abbrev rW2 : Rect S128x128 := Rect.unit (s := S128x128) ![0, 0] S128x128.size inb_S128x128_S128x128_0_0

/-! ## What the body leaves in the output's buffer -/

/-- The new state's block: the one store into window 5's buffer, a function of the five loaded blocks. -/
def out2_5 (x0 x1 x2 : Vec F S4000x128 .f32) (x3 x4 : Vec F S128x128 .f32) : Vec F S4000x128 .f32 :=
  View.canon [⟨rN2, k2_pay1 (View.ld x0 rN2) (View.ld x1 rN2) (View.ld x2 rN2) (View.ld x3 rW2) (View.ld x4 rW2)⟩]

/-- One whole-buffer store covers the buffer. -/
theorem cover2_5 (p0 : Vec F S4000x128 .f32) (y : S4000x128.Idx) :
    ∃ pc ∈ ([⟨rN2, p0⟩] : List (View.Piece (Elt F) S4000x128 .f32)), y ∈ pc.1.set :=
  View.cover_of_tiled [⟨rN2, p0⟩] S4000x128.size (by rfl) y

/-! ## The body's triple -/

set_option maxHeartbeats 1000000 in
/-- The body on whole buffers — the inputs' at contents `x0 … x4`, the output's at anything — runs to the end leaving the
    inputs as they were and the output at its store's value. -/
theorem sound_kernel2 (c : Dev nD) (E : Set ℕ) (i : grid2.Coords) (arg1 : Memref sig .tc .vmem S4000x128 .f32) (harg1 : arg1.IsWhole)
    (arg2 : Memref sig .tc .vmem S4000x128 .f32) (harg2 : arg2.IsWhole) (arg3 : Memref sig .tc .vmem S4000x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S4000x128 .f32) (harg6 : arg6.IsWhole)
    (x0 x1 x2 : Vec F S4000x128 .f32) (x3 x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__update_kernel i arg1 harg1 arg2 harg2 arg3 harg3 arg4 harg4 arg5 harg5 arg6 harg6) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data -/

/-- On core `c`: the arrays as the call finds them; after the body at point `t` each input's buffer at its block and the
    output's at its store's value of the five input blocks; the invariant is the untouched rest; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of this update call, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Region3Body.lean ====
/-
  The reduction call (the last of the four kernel launches): its body, on any whole buffers and at any float instance.
  The grid has 25 points. The body keeps a running row of 128 sums in a buffer of its own that lives across the points:
  at the first point it sets the row to zero; at every point it adds to the row the column sums of the 4000 x 128 block
  it is given; at the last point it copies the row into the output's buffer, which it does not touch at any other
  point. So there are three cases — first point, a middle point, last point — told apart by two conditions on the
  grid coordinate, each decided over the grid. For each case: what the three buffers hold after the body, given what
  they held before.
-/
import proofs.«149511_j13958643712644_2_alg».proof.Proof.KernelIdealLaunchP
import proofs.«149511_j13958643712644_2_alg».proof.Proof.Gen.KernelIdeal.Skeleton
import proofs.«149511_j13958643712644_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, and where they hold -/

/-- The condition under which the body zeroes the running row: the grid coordinate is 0. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition under which the body copies the running row out: the grid coordinate is 24. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle -/

/-- The input window is live at every point. -/
theorem liveAt3_0 : ∀ t : Fin cfg3.N, cfg3.idle 0 (grid3.coords t) = false := by decide +kernel
/-- Away from the last point the output window is idle: the body stores nothing into it, -/
theorem idleAt3_1 : ∀ t : Fin cfg3.N, ¬cond3_1 (grid3.coords t) → cfg3.idle 1 (grid3.coords t) = true := by decide +kernel
/-- and its block is not written back there. -/
theorem noFlush3_1 : ∀ t : Fin cfg3.N, ¬cond3_1 (grid3.coords t) → (cfg3.win 1).flush t = false := by decide +kernel
/-- At the last point the output window is live. -/
theorem liveAt3_1 : ∀ t : Fin cfg3.N, cond3_1 (grid3.coords t) → cfg3.idle 1 (grid3.coords t) = false := by decide +kernel

/-! ## The body's accesses: every load and store is of a whole buffer -/

abbrev rS3 : Rect S1x128 := Rect.unit (s := S1x128) ![0, 0] S1x128.size inb_S1x128_S1x128_0_0
abbrev rN3 : Rect S4000x128 := Rect.unit (s := S4000x128) ![0, 0] S4000x128.size inb_S4000x128_S4000x128_0_0

/-- The offsets of every access are zero. -/
theorem hz3 : (![0, 0] : Fin 2 → Nat) = fun _ => 0 := funext fun a => by fin_cases a <;> rfl

/-! ## The body's triple, case by case -/

set_option maxHeartbeats 1000000 in
/-- FIRST POINT. The input's buffer holds the block `x0`, the output's buffer `xo`, the running row anything. The body
    zeroes the row, reads it back, adds the block's column sums and stores the result: the row ends at
    `k3_pay2 k3_pay1 x0`; the other two buffers are as they were. -/
theorem sound_kernel3_first (c : Dev nD) (E : Set ℕ) (i : grid3.Coords)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (hc0 : cond3_0 i) (hc1 : ¬cond3_1 i)
    (x0 : Vec F S4000x128 .f32) (xo : Vec F S1x128 .f32) (K : PUnit → sProp 𝕄) :
    iprop(owns (c : Thread nD τ) arg1 fullShare x0 ∗ owns (c : Thread nD τ) arg2 fullShare xo
        ∗ (∃ d, owns (c : Thread nD τ) arg3 fullShare d)
        ∗ (iprop(owns (c : Thread nD τ) arg1 fullShare x0 ∗ owns (c : Thread nD τ) arg2 fullShare xo
            ∗ owns (c : Thread nD τ) arg3 fullShare (k3_pay2 (k3_pay1 (F := F)) x0)) -∗ K ⟨⟩))
      ⊢ wp frame (wpE (defs₀ (F := F)) Variants.none c none) E (cc3__reduce_kernel i arg1 harg1 arg2 harg2 arg3 harg3) K := by
  simp only [cc3__reduce_kernel_eq_skeleton]; unfold cc3__reduce_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (fun y => ⟨_, List.mem_cons.mpr (Or.inl rfl), View.mem_set_unit_zero hz3 inb_S1x128_S1x128_0_0 y⟩)]
  rw [View.canon_cons_unit_zero (S := S1x128) hz3, View.readCov_unit_zero (S := S1x128) _ hz3]
  simp only [View.readAt_eq_ld, View.ld_unit_zero (S := S4000x128) hz3]

set_option maxHeartbeats 1000000 in
/-- A MIDDLE POINT. The running row holds `xs`. The body adds the block's column sums to it: the row ends at
    `k3_pay2 xs x0`; the other two buffers are as they were. -/
theorem sound_kernel3_mid (c : Dev nD) (E : Set ℕ) (i : grid3.Coords)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (hc0 : ¬cond3_0 i) (hc1 : ¬cond3_1 i)
    (x0 : Vec F S4000x128 .f32) (xo : Vec F S1x128 .f32) (xs : Vec F S1x128 .f32) (K : PUnit → sProp 𝕄) :
    iprop(owns (c : Thread nD τ) arg1 fullShare x0 ∗ owns (c : Thread nD τ) arg2 fullShare xo
        ∗ owns (c : Thread nD τ) arg3 fullShare xs
        ∗ (iprop(owns (c : Thread nD τ) arg1 fullShare x0 ∗ owns (c : Thread nD τ) arg2 fullShare xo
            ∗ owns (c : Thread nD τ) arg3 fullShare (k3_pay2 xs x0)) -∗ K ⟨⟩))
      ⊢ wp frame (wpE (defs₀ (F := F)) Variants.none c none) E (cc3__reduce_kernel i arg1 harg1 arg2 harg2 arg3 harg3) K := by
  simp only [cc3__reduce_kernel_eq_skeleton]; unfold cc3__reduce_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (fun y => ⟨_, List.mem_cons.mpr (Or.inl rfl), View.mem_set_unit_zero hz3 inb_S1x128_S1x128_0_0 y⟩)]
  rw [View.canon_unit_zero (S := S1x128) hz3]
  simp only [View.readAt_eq_ld, View.ld_unit_zero (S := S1x128) hz3, View.ld_unit_zero (S := S4000x128) hz3]

set_option maxHeartbeats 1000000 in
/-- LAST POINT. The running row holds `xs`, the output's buffer anything. The body adds the block's column sums to the
    row and copies the row into the output's buffer: both end at `k3_pay2 xs x0`; the input's buffer is as it was. -/
theorem sound_kernel3_last (c : Dev nD) (E : Set ℕ) (i : grid3.Coords)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (hc0 : ¬cond3_0 i) (hc1 : cond3_1 i)
    (x0 : Vec F S4000x128 .f32) (xs : Vec F S1x128 .f32) (K : PUnit → sProp 𝕄) :
    iprop(owns (c : Thread nD τ) arg1 fullShare x0 ∗ (∃ d, owns (c : Thread nD τ) arg2 fullShare d)
        ∗ owns (c : Thread nD τ) arg3 fullShare xs
        ∗ (iprop(owns (c : Thread nD τ) arg1 fullShare x0 ∗ owns (c : Thread nD τ) arg2 fullShare (k3_pay2 xs x0)
            ∗ owns (c : Thread nD τ) arg3 fullShare (k3_pay2 xs x0)) -∗ K ⟨⟩))
      ⊢ wp frame (wpE (defs₀ (F := F)) Variants.none c none) E (cc3__reduce_kernel i arg1 harg1 arg2 harg2 arg3 harg3) K := by
  simp only [cc3__reduce_kernel_eq_skeleton]; unfold cc3__reduce_kernel_skel
  unfold owns
  iintro ⟨⟨%f0, %hf0, H0⟩, ⟨%d1, %f1, -, H1⟩, ⟨%fs, %hfs, HS⟩, Hk⟩
  subst hf0; subst hfs
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    rw [View.read_writes_eq_canon _ _ _ (fun y => ⟨_, List.mem_cons.mpr (Or.inl rfl), View.mem_set_unit_zero hz3 inb_S1x128_S1x128_0_0 y⟩)]
    rw [View.canon_unit_zero (S := S1x128) hz3, View.readCov_unit_zero (S := S1x128) _ hz3]
    simp only [View.readAt_eq_ld, View.ld_unit_zero (S := S1x128) hz3, View.ld_unit_zero (S := S4000x128) hz3]
  iexists _; isplitr
  swap; · iexact HS
  ipureintro
  sl_unfold_run_names
  rw [View.read_writes_eq_canon _ _ _ (fun y => ⟨_, List.mem_cons.mpr (Or.inl rfl), View.mem_set_unit_zero hz3 inb_S1x128_S1x128_0_0 y⟩)]
  rw [View.canon_unit_zero (S := S1x128) hz3]
  simp only [View.readAt_eq_ld, View.ld_unit_zero (S := S1x128) hz3, View.ld_unit_zero (S := S4000x128) hz3]

end Cert.KernelIdeal.Hand

end
-- ==== Proof.Region3.lean ====
/-
  The reduction call (the last of the four kernel launches), at any float instance and at any contents `V` of the
  buffers on entry: the per-point proof data and the body's obligation at every point. The running row of sums lives in
  a buffer of the call's own across the 25 points, so the invariant between points says what that buffer holds:
  nothing before the first point; after point `n` the row `acc3 (n + 1)`, where `acc3 0` is the zero row and
  `acc3 (n + 1)` is `acc3 n` plus the column sums of block `n` of the input. The output's buffer is stored into at the
  last point only, with the row `acc3 25`, and written back there; at the other points it is handed back as found.
-/
import proofs.«149511_j13958643712644_2_alg».proof.Proof.KernelIdealLaunchP
import proofs.«149511_j13958643712644_2_alg».proof.Proof.Gen.KernelIdeal.Skeleton
import proofs.«149511_j13958643712644_2_alg».proof.Proof.Gen.KernelIdeal.Points
import proofs.«149511_j13958643712644_2_alg».proof.Proof.Region3Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's buffer holds its block at every point: it is fetched at every point and the body leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The running row -/

/-- The running row after the first `n` points: the zero row, then one block's column sums added per point, in point order. -/
def acc3 (c : Dev nD) : ℕ → Vec F S1x128 .f32
  | 0 => k3_pay1
  | n + 1 => if h : n < cfg3.N then k3_pay2 (acc3 c n) (iblk3 V c 0 ⟨n, h⟩) else acc3 c n

theorem acc3_zero (c : Dev nD) : acc3 V c 0 = k3_pay1 := rfl

/-- One more point: the block's column sums added to the row. -/
theorem acc3_succ (c : Dev nD) (t : Fin cfg3.N) : acc3 V c (t.val + 1) = k3_pay2 (acc3 V c t.val) (iblk3 V c 0 t) := by
  rw [acc3]; exact dif_pos t.isLt

/-! ## The invariant between points -/

/-- The call's own buffer for the running row, as the body is handed it. -/
abbrev scM3 : Memref sig .tc .vmem S1x128 .f32 := Memref.whole cc3_scratch0

/-- Every other buffer that lives only during kernel calls and is no staging buffer of this call, at some contents each. -/
abbrev rest3 (c : Dev nD) : sProp 𝕄 :=
  Pipeline.scopedRestBut (Ix := Unit) (Name := ℕ) (U := UR sig nD τ) (Lvl := ℕ) (Val := Elt F) spec3 c [cc3_scratch0]

/-- Before point `n`: before the first point nothing is known of the running row's buffer; afterwards it holds `acc3 n`. -/
def Phi3 (c : Dev nD) : ℕ → sProp 𝕄
  | 0 => Pipeline.ΦA spec3 c
  | n + 1 => iprop(iprop(owns (c : Thread nD τ) scM3 fullShare (acc3 V c (n + 1)) ∗ rest3 c) ∗ (∃ r, prngReg c r))

theorem Phi3_zero (c : Dev nD) (n : ℕ) (hz : n = 0) : Phi3 V c n = Pipeline.ΦA spec3 c := by
  subst hz; rfl

theorem Phi3_succ (c : Dev nD) (n : ℕ) :
    Phi3 V c (n + 1) = iprop(iprop(owns (c : Thread nD τ) scM3 fullShare (acc3 V c (n + 1)) ∗ rest3 c) ∗ (∃ r, prngReg c r)) := rfl

theorem Phi3_pos (c : Dev nD) (n : ℕ) (hz : n ≠ 0) :
    Phi3 V c n = iprop(iprop(owns (c : Thread nD τ) scM3 fullShare (acc3 V c n) ∗ rest3 c) ∗ (∃ r, prngReg c r)) := by
  cases n with
  | zero => exact absurd rfl hz
  | succ n => rfl

/-- The invariant that knows nothing of the running row's buffer, with that buffer split off. -/
theorem PhiA3_eq (c : Dev nD) :
    (Pipeline.ΦA spec3 c : sProp 𝕄)
      = iprop(iprop((∃ d, owns (c : Thread nD τ) scM3 fullShare d) ∗ rest3 c) ∗ (∃ r, prngReg c r)) := by
  unfold Pipeline.ΦA; rw [scopedRest3_split]; simp only [scM3, owns_whole]; try rfl

/-! ## The proof data -/

/-- The proof data of the call on core `c`: the arrays as the call finds them; after the body at point `t` the input's
    buffer at its block and the output's at `acc3 (t + 1)` (consulted at the last point only: elsewhere the window is
    idle); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => acc3 V c (t.val + 1)
  Φ t := Phi3 V c t.val
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) : (dat3 V c).Φ t.castSucc = Phi3 V c t.val := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = acc3 V c (t.val + 1) := by dsimp only [dat3]

theorem before3_0 (c : Dev nD) (t : Fin cfg3.N) (d) : (dat3 V c).before 0 t d = iblk3 V c 0 t :=
  before3_0_of V (dat3 V c) (A_eq3 V c 0) (after3_0 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 2000000 in
/-- The body at any point, by the three cases. The input's buffer holds its block; the invariant hands the body the
    running row's buffer (at anything at the first point, at `acc3 t` later) and takes it back at `acc3 (t + 1)`; the
    output's buffer is handed back as found except at the last point, where it ends at `acc3 25`. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = Phi3 V c (t.val + 1) from rfl, Phi3_succ, acc3_succ]
  rw [show (dat3 V c).leavesExact 0 t = owns (c : Thread nD τ) (st3_0 t) fullShare ((dat3 V c).after 0 t) from by
    unfold Dat.leavesExact; rw [liveAt3_0 t], after3_0]
  have hN : t.val < 25 := lt_of_lt_of_eq t.isLt (show cfg3.N = 25 from N_3)
  by_cases h0 : t.val = 0
  · have h1 : ¬t.val = 24 := by omega
    have hc0 : cond3_0 (grid3.coords t) := (hcond3_0 t).mpr h0
    have hc1 : ¬cond3_1 (grid3.coords t) := fun h => h1 ((hcond3_1 t).mp h)
    rw [Dat.leavesExact_idle (dat3 V c) 1 t (idleAt3_1 t hc1) (noFlush3_1 t hc1)]
    rw [Phi3_castSucc V c t, Phi3_zero V c _ h0, PhiA3_eq, h0, acc3_zero]
    iintro ⟨⟨⟨HS, HR⟩, Hg⟩, Ho, ⟨%d0, H0⟩, ⟨%d1, H1⟩⟩
    iapply (sound_kernel3_first c Set.univ (grid3.coords t) _ _ _ _ _ _ hc0 hc1 (iblk3 V c 0 t) _ _)
    isplitl [H0]; · iexact H0
    isplitl [H1]; · iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexists _; iexact H1
  · have hc0 : ¬cond3_0 (grid3.coords t) := fun h => h0 ((hcond3_0 t).mp h)
    rw [Phi3_castSucc V c t, Phi3_pos V c _ h0]
    by_cases h1 : t.val = 24
    · have hc1 : cond3_1 (grid3.coords t) := (hcond3_1 t).mpr h1
      rw [show (dat3 V c).leavesExact 1 t = owns (c : Thread nD τ) (st3_1 t) fullShare ((dat3 V c).after 1 t) from by
        unfold Dat.leavesExact; rw [liveAt3_1 t hc1], after3_1, acc3_succ]
      iintro ⟨⟨⟨HS, HR⟩, Hg⟩, Ho, ⟨%d0, H0⟩, ⟨%d1, H1⟩⟩
      iapply (sound_kernel3_last c Set.univ (grid3.coords t) _ _ _ _ _ _ hc0 hc1 (iblk3 V c 0 t) _ _)
      isplitl [H0]; · iexact H0
      isplitl [H1]; · iexists _; iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexact H1
    · have hc1 : ¬cond3_1 (grid3.coords t) := fun h => h1 ((hcond3_1 t).mp h)
      rw [Dat.leavesExact_idle (dat3 V c) 1 t (idleAt3_1 t hc1) (noFlush3_1 t hc1)]
      iintro ⟨⟨⟨HS, HR⟩, Hg⟩, Ho, ⟨%d0, H0⟩, ⟨%d1, H1⟩⟩
      iapply (sound_kernel3_mid c Set.univ (grid3.coords t) _ _ _ _ _ _ hc0 hc1 (iblk3 V c 0 t) _ _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexists _; iexact H1

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the call's two ends -/

/-- Before the first point the invariant is the one that knows nothing of the running row's buffer. -/
theorem Phi3_first (c : Dev nD) : (dat3 V c).Φ 0 = Pipeline.ΦA spec3 c := rfl

/-- What the call is entered with gives the invariant before the first point. -/
theorem hin3 (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [Phi3_first]; unfold Pipeline.ΦA
  iintro ⟨Hp, Hr⟩
  isplitl [Hr]; · iexact Hr
  iexact Hp

/-- After the last point the invariant gives back what the call was entered with: what the running row's buffer holds is forgotten. -/
theorem hout3 (c : Dev nD) :
    (dat3 V c).Φ (Fin.last _)
      ⊢ iprop((∃ r, prngReg c r) ∗ Pipeline.scopedRest (Ix := Unit) (Name := ℕ) (U := UR sig nD τ) (Lvl := ℕ) (Val := Elt F) spec3 c) := by
  rw [show (dat3 V c).Φ (Fin.last _) = Phi3 V c (Fin.last cfg3.N).val from rfl,
    Phi3_pos V c _ (by rw [Fin.val_last]; have : cfg3.N = 25 := N_3; omega), scopedRest3_split]
  simp only [scM3, owns_whole]
  iintro ⟨⟨HS, HR⟩, Hg⟩
  isplitl [Hg]; · iexact Hg
  isplitl [HS]
  · iexists _; iexact HS
  iexact HR

/-! ## The output array after the call -/

/-- The one point that writes the output back: the last. -/
abbrev tL3 : Fin cfg3.N := ⟨24, by decide⟩

/-- What the write-back at the last point writes is the running row after all 25 points: the output's one block, read
    through zero offsets, is the whole array. -/
theorem flushed3_eq (c : Dev nD) (t : Fin cfg3.N) (hf : (cfg3.win 1).flush t = true) :
    (dat3 V c).flushed 1 t = ((cfg3.win 1).blk t).view.read (Elt F) (acc3 V c 25 : Buf (Elt F) ((c : Thread nD τ).loc main_v51)) := by
  have hN : t.val < 25 := lt_of_lt_of_eq t.isLt (show cfg3.N = 25 from N_3)
  have h24 : t.val = 24 := by have := (flush3_1 t).mp hf; omega
  obtain rfl : t = tL3 := Fin.ext h24
  show (cfg3.win 1).cut (grid3.coords tL3) ((dat3 V c).after 1 tL3) = _
  rw [after3_1]
  have hz' : (fun a => win3_1.index tL3 a * main_v51.ty.shape.size a) = fun _ => 0 := funext fun a => by fin_cases a <;> decide
  exact (Memref.read_access_unit_zero (Elt F) main_v51 hz' (fun a => by rw [congrFun hz' a]; simp) (acc3 V c 25)).symm

/-- So the output array ends holding the running row after all 25 points:
    `acc3 25 = k3_pay2 (… (k3_pay2 (k3_pay2 k3_pay1 block₀) block₁) …) block₂₄`. -/
theorem arrAt3_1 (c : Dev nD) : (dat3 V c).arrAt 1 cfg3.N = (acc3 V c 25 : Buf (Elt F) ((c : Thread nD τ).loc main_v51)) :=
  (dat3 V c).arrAt_eq_of_cover 1 (acc3 V c 25) (flushed3_eq V c) fun i =>
    ⟨tL3, (flush3_1 tL3).mpr rfl, by
      show i ∈ ((View.whole main_v51).slice (win3_1.rect tL3)).set
      rw [View.set_slice_whole, Rect.mem_set_unit]
      intro a
      have h0 : (i 0 : Nat) < 1 := (i 0).isLt
      have h1 : (i 1 : Nat) < 128 := (i 1).isLt
      match a with
      | ⟨0, _⟩ =>
        show win3_1.index tL3 0 * win3_1.size 0 ≤ (i 0 : Nat) ∧ (i 0 : Nat) < win3_1.index tL3 0 * win3_1.size 0 + win3_1.xsize (grid3.coords tL3) 0
        rw [show win3_1.index tL3 0 * win3_1.size 0 = 0 from by decide +kernel, show win3_1.xsize (grid3.coords tL3) 0 = 1 from by decide +kernel]; omega
      | ⟨1, _⟩ =>
        show win3_1.index tL3 1 * win3_1.size 1 ≤ (i 1 : Nat) ∧ (i 1 : Nat) < win3_1.index tL3 1 * win3_1.size 1 + win3_1.xsize (grid3.coords tL3) 1
        rw [show win3_1.index tL3 1 * win3_1.size 1 = 0 from by decide +kernel, show win3_1.xsize (grid3.coords tL3) 1 = 128 from by decide +kernel]; omega⟩

/-- The input array is left as the call found it. -/
theorem arrAt3_0 (c : Dev nD) : (dat3 V c).arrAt 0 cfg3.N = V c (Pipeline.arrRef spec3 0) :=
  ((dat3 V c).arrAt_in 0 rfl _).trans (A_eq3 V c 0)

/-- The running row, one step unfolded at a numeral (for reading `acc3 25` down to `acc3 0`). -/
theorem acc3_step (c : Dev nD) (n : ℕ) (h : n < cfg3.N) : acc3 V c (n + 1) = k3_pay2 (acc3 V c n) (iblk3 V c 0 ⟨n, h⟩) :=
  acc3_succ V c ⟨n, h⟩

end Cert.KernelIdeal.Hand

end
-- ==== Proof.Run.lean ====
/-
  The whole run of the program: @main is eight segments — host lines, the embedding call, host lines (the first pair of edge
  aggregations), the first update call, host lines (the second pair), the second update call, the column-sum call, one last
  host line. The buffers' contents at each boundary are a fold from the launch memory: a host stretch applies its
  operations; a kernel call replaces its arrays by what its write-backs leave and touches nothing else. Each call is
  entered from, and left at, "every unscoped buffer at the boundary's contents, the generator register somewhere, nothing
  owed". From the chained segments: every weakly fair execution terminates without a fault with every unscoped buffer at
  the fold's last contents — in particular the five arguments as launched, and the result buffer at a named value.
-/
import proofs.«149511_j13958643712644_2_alg».proof.Proof.KernelIdealLaunchP
import proofs.«149511_j13958643712644_2_alg».proof.Proof.Gen.KernelIdeal.Skeleton
import proofs.«149511_j13958643712644_2_alg».proof.Proof.Gen.KernelIdeal.Points
import proofs.«149511_j13958643712644_2_alg».proof.Proof.Region0
import proofs.«149511_j13958643712644_2_alg».proof.Proof.Region1
import proofs.«149511_j13958643712644_2_alg».proof.Proof.Region2
import proofs.«149511_j13958643712644_2_alg».proof.Proof.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- No operation of host stretch 0 allocates a buffer. -/
theorem hostOps0_fresh : (hostOps0 : List (HloOp τ sig (Elt F))).Forall fun op => op.fresh = ∅ := by
  simp only [List.Forall]; repeat' constructor
/-- The buffers host stretch 0 writes. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 1 allocates a buffer. -/
theorem hostOps1_fresh : (hostOps1 : List (HloOp τ sig (Elt F))).Forall fun op => op.fresh = ∅ := by
  simp only [List.Forall]; repeat' constructor
/-- The buffers host stretch 1 writes. -/
abbrev hostOps1_W : List (Ref sig .tc) := [main_c, main_v5, main_v6, main_c_0, main_v7, main_v8, main_v9, main_v10, main_v11, main_v12, main_cst, main_v13, main_v14, main_v15, main_c_1, main_v16, main_v17, main_c_2, main_v18, main_v19, main_v20, main_v21, main_v22, main_v23, main_cst_3, main_v24, main_v25, main_v26]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 2 allocates a buffer. -/
theorem hostOps2_fresh : (hostOps2 : List (HloOp τ sig (Elt F))).Forall fun op => op.fresh = ∅ := by
  simp only [List.Forall]; repeat' constructor
/-- The buffers host stretch 2 writes. -/
abbrev hostOps2_W : List (Ref sig .tc) := [main_c_4, main_v28, main_v29, main_c_5, main_v30, main_v31, main_v32, main_v33, main_v34, main_v35, main_cst_6, main_v36, main_v37, main_v38, main_c_7, main_v39, main_v40, main_c_8, main_v41, main_v42, main_v43, main_v44, main_v45, main_v46, main_cst_9, main_v47, main_v48, main_v49]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 4 allocates a buffer. -/
theorem hostOps4_fresh : (hostOps4 : List (HloOp τ sig (Elt F))).Forall fun op => op.fresh = ∅ := by
  simp only [List.Forall]; repeat' constructor
/-- The buffers host stretch 4 writes. -/
abbrev hostOps4_W : List (Ref sig .tc) := [main_v52]
theorem hostOps4_writes : (hostOps4 : List (HloOp τ sig (Elt F))).Forall fun op => op.writes ⊆ (hostOps4_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-! ## The buffers' contents at each boundary of @main: a fold from the launch memory -/

/-- Core `c`'s buffers at launch. -/
abbrev W0 : Dev nD → Valuation τ sig (Elt F) := fun c b => (s₀ m ρ).mem ((c : Dev nD), b)
/-- After the first host stretch (the two index rows cut out of the edge array). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After kernel call 0: its arrays at what its write-backs leave, every other buffer as on entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the next host stretch (the two edge aggregations of the state just written). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After kernel call 1: its arrays at what its write-backs leave, every other buffer as on entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the next host stretch (the two edge aggregations of the state just written). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After kernel call 2: its arrays at what its write-backs leave, every other buffer as on entry. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After kernel call 3: its arrays at what its write-backs leave, every other buffer as on entry. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After the last host line (the [1,128] sums reshaped to [128]). -/
abbrev W8 : Dev nD → Valuation τ sig (Elt F) := fun c => StableHlo.after hostOps4 (W7 m ρ c)

/-! ## The arguments end as launched -/

/-- Argument 0 ends as launched: no host line writes it, and a kernel call either does not touch it or only reads it. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := StableHlo.after_of_writes_sub hostOps4 _ hostOps4_writes (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

/-- Argument 1 ends as launched: no host line writes it, and a kernel call either does not touch it or only reads it. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := StableHlo.after_of_writes_sub hostOps4 _ hostOps4_writes (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- Argument 2 ends as launched: no host line writes it, and a kernel call either does not touch it or only reads it. -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := StableHlo.after_of_writes_sub hostOps4 _ hostOps4_writes (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl

/-- Argument 3 ends as launched: no host line writes it, and a kernel call either does not touch it or only reads it. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := StableHlo.after_of_writes_sub hostOps4 _ hostOps4_writes (by decide)
    _ = W6 m ρ c (Proc.devRef .tc main_arg3) := W7_of_ne m ρ c main_arg3 (by decide)
    _ = W5 m ρ c (Proc.devRef .tc main_arg3) := (W6_arr m ρ c 3).trans (((dat2 (V5 m ρ) c).arrAt_in 3 rfl _).trans (A_eq2 (V5 m ρ) c 3))
    _ = W4 m ρ c (Proc.devRef .tc main_arg3) := StableHlo.after_of_writes_sub hostOps2 _ hostOps2_writes (by decide)
    _ = W3 m ρ c (Proc.devRef .tc main_arg3) := (W4_arr m ρ c 3).trans (((dat1 (V3 m ρ) c).arrAt_in 3 rfl _).trans (A_eq1 (V3 m ρ) c 3))
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- Argument 4 ends as launched: no host line writes it, and a kernel call either does not touch it or only reads it. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := StableHlo.after_of_writes_sub hostOps4 _ hostOps4_writes (by decide)
    _ = W6 m ρ c (Proc.devRef .tc main_arg4) := W7_of_ne m ρ c main_arg4 (by decide)
    _ = W5 m ρ c (Proc.devRef .tc main_arg4) := (W6_arr m ρ c 4).trans (((dat2 (V5 m ρ) c).arrAt_in 4 rfl _).trans (A_eq2 (V5 m ρ) c 4))
    _ = W4 m ρ c (Proc.devRef .tc main_arg4) := StableHlo.after_of_writes_sub hostOps2 _ hostOps2_writes (by decide)
    _ = W3 m ρ c (Proc.devRef .tc main_arg4) := (W4_arr m ρ c 4).trans (((dat1 (V3 m ρ) c).arrAt_in 4 rfl _).trans (A_eq1 (V3 m ρ) c 4))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The proof data family and the thread state -/

/-- No call has a prefetched table. -/
abbrev adm : (p : Fin 4) → (pcfgs (F := F) p).Adm := fun p => (cfgs p).toPCfg_adm
/-- Every call's proof data, each at the contents its call is entered with. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and its debts, none. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along; it ends with the
    buffers at the stretch's operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some state. -/
abbrev Tₙ (c : Dev nD) : sProp 𝕄 := iprop(StableHlo.held (c : Thread nD τ) (Pipeline.ucRefs τ sig) (W8 m ρ c) ∗ ∃ r, prngReg c r)

/-! ## The kernel calls as segments -/

-- a library lemma stated over the pinned configuration unifies with the printed one only when unification may unfold
-- plain definitions in a metavariable's type
set_option backward.isDefEq.respectTransparency.types false in
/-- Kernel call 0 as a segment: entered with every unscoped buffer at `W1`, left with them at `W2`. Its arrays
    are split out of the unscoped buffers on entry and put back at their final contents on exit; the generator register
    goes into the call's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel call 1 as a segment: entered with every unscoped buffer at `W3`, left with them at `W4`. Its arrays
    are split out of the unscoped buffers on entry and put back at their final contents on exit; the generator register
    goes into the call's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel call 2 as a segment: entered with every unscoped buffer at `W5`, left with them at `W6`. Its arrays
    are split out of the unscoped buffers on entry and put back at their final contents on exit; the generator register
    goes into the call's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel call 3 as a segment: entered with every unscoped buffer at `W6`, left with them at `W7`. Its arrays
    are split out of the unscoped buffers on entry and put back at their final contents on exit; the generator register
    goes into the call's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V6 m ρ) c).Φ 0 from rfl]
    iintro ⟨Hp, -, Hr⟩
    iapply (hin3 (V6 m ρ) c)
    isplitl [Hp]; · iexact Hp
    iexact Hr
  hout c := by
    rw [Pipeline.ownSems0_none, show (pdats m ρ 3 c).Φ (Fin.last _) = (dat3 (V6 m ρ) c).Φ (Fin.last _) from rfl]
    iintro H
    ihave H' := (hout3 (V6 m ρ) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)) ]
/-- @main is the run of the segments. -/
theorem main_run (c : Dev nD) : main (F := F) c = Pipeline.Seg.run (segs m ρ) := (main_chain c).trans (by chain_rfl)

set_option backward.isDefEq.respectTransparency.types false in
/-- THE RUN, at any float instance: from any memory with zero counters every weakly fair execution of @main terminates,
    nothing faulting, and in the final memory every unscoped buffer of every core holds the last contents of the fold `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W8 m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The frame, at any float instance: the run, read at the five argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c)⟩) (run_all m ρ)

/-- The run with the result named: the result buffer ends at the fold's last contents there. -/
theorem run_result : θ_run defs (onTc (τ := τ) (main (F := F))) ⟨m, fun _ => 0, ρ⟩ (fun r => ∀ c : Dev nD,
      r.2.mem ((c.tc : Thread nD τ).loc main_v52) = W8 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v52 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c)⟩) (run_all m ρ)

end Cert.KernelIdeal.Hand

end
-- ==== Proof.KAgg.lean ====
/-
  The kernel program's host lines, read as functions: the two index rows cut out of the edge array, the edge aggregation
  (a gather of the state's rows at the wrapped source indices, widened, scatter-added into the zero matrix at the target
  indices) that the program performs twice before each update call, and the final reshape of the column sums.
  Each lemma says what one host stretch leaves in one buffer, in terms of what the stretch finds in the buffers it reads.
-/
import proofs.«149511_j13958643712644_2_alg».proof.Proof.KernelIdealLaunchP
import Idealize.ShloMosaic.Lib.StableHlo.Run
import Idealize.ShloMosaic.PureOps.Ideal

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.StableHlo

/-- Row `r` (0 or 1) of the edge array as a vector: the slice, then the reshape. -/
def rowK0 (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000
def rowK1 (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The edge aggregation with sources `from_` and targets `to_`: rows of `mu` gathered at the wrapped source indices
    (a negative index has 100000 added), widened, and scatter-added into the zero matrix at the target indices. -/
def aggK (from_ to_ : (⟨S1600000, .i32⟩ : BufTy).Contents (Elt Ideal)) (mu : (⟨S100000x128, .bf16⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 to_)
    (extf (F := Ideal) .f32 (Host.gather gather_S100000x128_S1600000x1_S1600000x128_1_0_n_n_0_1_1128 mu
      (broadcastInDim S1600000x1 ![0] bcast_S1600000_S1600000x1_0
        (select (cmpi .slt from_ (broadcastInDim S1600000 ![] bcast_S_S1600000 (constantI S_ 32 0#32)))
          (addi from_ (broadcastInDim S1600000 ![] bcast_S_S1600000 (constantI S_ 32 100000#32))) from_))) bitsLt_bf16_f32)

variable (Wp : Valuation τ sig (Elt Ideal))

/-- The first host stretch leaves the two rows of the edge array in `main_v1` and `main_v3`. -/
theorem host0_v1 : StableHlo.after (hostOps0 (F := Ideal)) Wp (Proc.devRef .tc main_v1) = rowK0 (Wp (Proc.devRef .tc main_arg1)) := by
  after_results; rfl
theorem host0_v3 : StableHlo.after (hostOps0 (F := Ideal)) Wp (Proc.devRef .tc main_v3) = rowK1 (Wp (Proc.devRef .tc main_arg1)) := by
  after_results; rfl

/-- The second host stretch leaves the two aggregations of the state in `main_v4_1`. -/
theorem host1_v15 : StableHlo.after (hostOps1 (F := Ideal)) Wp (Proc.devRef .tc main_v15)
    = aggK (Wp (Proc.devRef .tc main_v1)) (Wp (Proc.devRef .tc main_v3)) (Wp (Proc.devRef .tc main_v4_1)) := by
  after_results_simp <;> rfl
theorem host1_v26 : StableHlo.after (hostOps1 (F := Ideal)) Wp (Proc.devRef .tc main_v26)
    = aggK (Wp (Proc.devRef .tc main_v3)) (Wp (Proc.devRef .tc main_v1)) (Wp (Proc.devRef .tc main_v4_1)) := by
  after_results_simp <;> rfl

/-- The third host stretch leaves the two aggregations of the state in `main_v27`. -/
theorem host2_v38 : StableHlo.after (hostOps2 (F := Ideal)) Wp (Proc.devRef .tc main_v38)
    = aggK (Wp (Proc.devRef .tc main_v1)) (Wp (Proc.devRef .tc main_v3)) (Wp (Proc.devRef .tc main_v27)) := by
  after_results_simp <;> rfl
theorem host2_v49 : StableHlo.after (hostOps2 (F := Ideal)) Wp (Proc.devRef .tc main_v49)
    = aggK (Wp (Proc.devRef .tc main_v3)) (Wp (Proc.devRef .tc main_v1)) (Wp (Proc.devRef .tc main_v27)) := by
  after_results_simp <;> rfl

/-- The last host line reshapes the [1, 128] sums to [128]. -/
theorem host4_v52 : StableHlo.after (hostOps4 (F := Ideal)) Wp (Proc.devRef .tc main_v52)
    = shapeCast _ (Wp (Proc.devRef .tc main_v51)) shapeCasts_S1x128_S128 := by
  after_results; rfl

end Cert.KernelIdeal.Hand

end
-- ==== Proof.Spec.lean ====
/-
  The function both programs compute, over the extended reals.

  Nodes carry 128 features; `x` is the node-feature matrix [100000, 128] and `w1`, `w2`, `w3` are weight matrices
  [128, 128] used transposed. With `xe = x · w1ᵀ` the state starts at `mu₁ = max(xe, 0)` and is updated twice by
  `mu ↦ max(xe + aggIn(mu) · w2ᵀ + aggOut(mu) · w3ᵀ, 0)`, where `aggIn`, `aggOut` are the two edge aggregations
  (sum over incoming, resp. outgoing, edges of the neighbour's row) — kept here as PARAMETERS: both programs use the same
  gather-then-scatter-add for them, so nothing about them is needed beyond their being the same maps, and that they send
  the zero matrix to the zero matrix (which makes the reference's first round, started from zero, the plain `max(xe, 0)`).
  The result is the column sums of the last state.
-/
import Idealize.ShloMosaic.PureOps.Ideal
import Idealize.ShloMosaic.Lib.ValueIdx

noncomputable section

open scoped BigOperators

namespace Cert.GnnSpec

open Idealize.ShloMosaic Idealize.ShloMosaic.ValueIdx

/-- Node-feature matrices [100000, 128]. -/
abbrev SN : Shape := ⟨2, ![100000, 128]⟩
/-- Weight matrices [128, 128]. -/
abbrev SW : Shape := ⟨2, ![128, 128]⟩
/-- The result, a feature vector [128]. -/
abbrev SO : Shape := ⟨1, ![128]⟩

/-- `a · wᵀ`: entry (n, j) is the sum over k of a(n, k) · w(j, k). -/
def mulT (a : SN.Idx → EReal) (w : SW.Idx → EReal) : SN.Idx → EReal :=
  fun i => ∑ k : Fin 128, a (ix2 (i 0) k) * w (ix2 (i 1) k)

/-- The entrywise positive part. -/
def relu (a : SN.Idx → EReal) : SN.Idx → EReal := fun i => max (a i) 0

/-- One update of the state: `max(xe + a · w2ᵀ + b · w3ᵀ, 0)`, the sum grouped from the left. -/
def update (xe a b : SN.Idx → EReal) (w2 w3 : SW.Idx → EReal) : SN.Idx → EReal :=
  fun i => max (xe i + mulT a w2 i + mulT b w3 i) 0

/-- The column sums: entry j is the sum over the nodes n of mu(n, j). -/
def colSum (mu : SN.Idx → EReal) : SO.Idx → EReal :=
  fun j => ∑ n : Fin 100000, mu (ix2 n (j 0))

/-- The state after the embedding and two rounds of aggregation and update. -/
def state (aggIn aggOut : (SN.Idx → EReal) → (SN.Idx → EReal)) (x : SN.Idx → EReal) (w1 w2 w3 : SW.Idx → EReal) :
    SN.Idx → EReal :=
  let xe := mulT x w1
  let mu1 := relu xe
  let mu2 := update xe (aggIn mu1) (aggOut mu1) w2 w3
  update xe (aggIn mu2) (aggOut mu2) w2 w3

/-- The whole function: the column sums of the final state. -/
def G (aggIn aggOut : (SN.Idx → EReal) → (SN.Idx → EReal)) (x : SN.Idx → EReal) (w1 w2 w3 : SW.Idx → EReal) :
    SO.Idx → EReal :=
  colSum (state aggIn aggOut x w1 w2 w3)

/-- A round started from the zero state: both aggregations of zero are zero, a zero matrix times anything is zero
    (on the extended reals `0 · y = 0` for every `y`, infinite or not), so the update is the positive part of `xe`. -/
theorem update_zero (xe : SN.Idx → EReal) (w2 w3 : SW.Idx → EReal) :
    update xe (fun _ => 0) (fun _ => 0) w2 w3 = relu xe := by
  funext i
  simp only [update, relu, mulT, zero_mul, Finset.sum_const_zero, add_zero]

end Cert.GnnSpec

end
-- ==== Proof.PayMatmul.lean ====
/-
  The arithmetic of the three matrix-product calls at one entry, over the extended reals.

  Each of these calls multiplies a block of 4000 node rows by a 128 × 128 weight matrix used transposed: the product's
  entry (p, q) is the sum over k of a(p, k) · w(q, k) — both operands are contracted along their second axis. Over the
  extended reals a change of float format is the identity and a product accumulated into the zero matrix is the plain
  sum, so the embedding call's entry is that sum (and its positive part), and an update call's entry is the positive part
  of the state's entry plus two such sums, grouped from the left.
-/
import proofs.«149511_j13958643712644_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The dimension numbers of the three calls' products: [4000, 128] by [128, 128], each contracted along axis 1. -/
abbrev DT : DotDims S4000x128 S128x128 S4000x128 := dot_S4000x128_S128x128_S4000x128_1_1_0_0_n_n

/-! ## The operands' indices at an output index and a contraction position -/

/-- The left operand is read on the output's row … -/
theorem lhsT_0 (i : S4000x128.Idx) (c : DT.contr.Idx) : (DT.lhsIdx i c 0).val = (i 0).val := by
  unfold DotDims.lhsIdx
  rw [dif_neg (show ¬(0 : Fin S4000x128.rank) ∈ DT.lhsBatch by decide),
    dif_pos (show (0 : Fin S4000x128.rank) ∈ DT.lhsNonContracting by decide)]
  rfl
/-- … at the contraction position. -/
theorem lhsT_1 (i : S4000x128.Idx) (c : DT.contr.Idx) : (DT.lhsIdx i c 1).val = (c ⟨0, by decide⟩).val :=
  DT.lhsIdx_val_of_single rfl i c
/-- The right operand is read on the row named by the output's COLUMN (the weights are used transposed) … -/
theorem rhsT_0 (i : S4000x128.Idx) (c : DT.contr.Idx) : (DT.rhsIdx i c 0).val = (i 1).val := by
  unfold DotDims.rhsIdx
  rw [dif_neg (show ¬(0 : Fin S128x128.rank) ∈ DT.rhsBatch by decide),
    dif_pos (show (0 : Fin S128x128.rank) ∈ DT.rhsNonContracting by decide)]
  rfl
/-- … at the contraction position. -/
theorem rhsT_1 (i : S4000x128.Idx) (c : DT.contr.Idx) : (DT.rhsIdx i c 1).val = (c ⟨0, by decide⟩).val :=
  DT.rhsIdx_val_of_single rfl i c

/-! ## The product into the zero matrix, at an entry -/

/-- `a · wᵀ` accumulated into zero: entry (p, q) is the sum over k of a(p, k) · w(q, k). -/
theorem matmulT_apply {φ₁ φ₂ : FTy} (a : FVec Ideal S4000x128 φ₁) (w : FVec Ideal S128x128 φ₂) (p : Fin 4000) (q : Fin 128) :
    matmul DT none a w (constant (F := Ideal) S4000x128 .f32 0x00000000#32) (ix2 p q)
      = ∑ k : Fin 128, a (ix2 p k) * w (ix2 q k) := by
  simp only [matmul]
  rw [Ideal.matmul_constant_zero_apply, ← Equiv.sum_comp (contrEquiv1 DT 128 rfl rfl).symm]
  refine Finset.sum_congr rfl fun k _ => ?_
  have hk := contrEquiv1_symm_val DT 128 rfl rfl k
  have el : DT.lhsIdx (ix2 p q) ((contrEquiv1 DT 128 rfl rfl).symm k) = ix2 p k := funext fun b => Fin.ext (by
    match b with
    | ⟨0, _⟩ => exact lhsT_0 _ _
    | ⟨1, _⟩ => exact (lhsT_1 _ _).trans hk)
  have er : DT.rhsIdx (ix2 p q) ((contrEquiv1 DT 128 rfl rfl).symm k) = ix2 q k := funext fun b => Fin.ext (by
    match b with
    | ⟨0, _⟩ => exact rhsT_0 _ _
    | ⟨1, _⟩ => exact (rhsT_1 _ _).trans hk)
  rw [el, er]

/-! ## The embedding call -/

/-- The embedding's entry (p, q): the sum over k of x(p, k) · w1(q, k). -/
theorem k0_pay1_apply (v0 : Vec Ideal S4000x128 .f32) (v2 : Vec Ideal S128x128 .f32) (p : Fin 4000) (q : Fin 128) :
    k0_pay1 (F := Ideal) v0 v2 (ix2 p q) = ∑ k : Fin 128, v0 (ix2 p k) * v2 (ix2 q k) := by
  unfold k0_pay1
  exact matmulT_apply (truncf .bf16 v0 bitsLt_bf16_f32) (truncf .bf16 v2 bitsLt_bf16_f32) p q

/-- Its positive part. -/
theorem k0_pay2_apply (v0 : Vec Ideal S4000x128 .f32) (v2 : Vec Ideal S128x128 .f32) (p : Fin 4000) (q : Fin 128) :
    k0_pay2 (F := Ideal) v0 v2 (ix2 p q) = max (∑ k : Fin 128, v0 (ix2 p k) * v2 (ix2 q k)) 0 := by
  unfold k0_pay2
  show max (k0_pay1 (F := Ideal) v0 v2 (ix2 p q)) (Ideal.ofBits .f32 0x00000000#32) = _
  rw [k0_pay1_apply, Ideal.ofBits_zero_f32]

/-! ## The two update calls -/

/-- The first update's entry (p, q): the positive part of the state's entry plus the two transposed products' entries,
    the sum grouped from the left. -/
theorem k1_pay1_apply (v0 v2 v5 : Vec Ideal S4000x128 .f32) (v8 v10 : Vec Ideal S128x128 .f32) (p : Fin 4000) (q : Fin 128) :
    k1_pay1 (F := Ideal) v0 v2 v5 v8 v10 (ix2 p q)
      = max (v0 (ix2 p q) + (∑ k : Fin 128, v2 (ix2 p k) * v8 (ix2 q k)) + (∑ k : Fin 128, v5 (ix2 p k) * v10 (ix2 q k))) 0 := by
  unfold k1_pay1
  simp only [shapeCast_self]
  show max (v0 (ix2 p q)
        + matmul DT none (truncf .bf16 v2 bitsLt_bf16_f32) (truncf .bf16 v8 bitsLt_bf16_f32)
            (constant (F := Ideal) S4000x128 .f32 0x00000000#32) (ix2 p q)
        + matmul DT none (truncf .bf16 v5 bitsLt_bf16_f32) (truncf .bf16 v10 bitsLt_bf16_f32)
            (constant (F := Ideal) S4000x128 .f32 0x00000000#32) (ix2 p q))
      (Ideal.ofBits .f32 0x00000000#32) = _
  rw [matmulT_apply, matmulT_apply, Ideal.ofBits_zero_f32]
  rfl

/-- The second update's entry (p, q): the same expression (this call keeps its result in the wider format, which over
    the extended reals changes nothing). -/
theorem k2_pay1_apply (v0 v2 v5 : Vec Ideal S4000x128 .f32) (v8 v10 : Vec Ideal S128x128 .f32) (p : Fin 4000) (q : Fin 128) :
    k2_pay1 (F := Ideal) v0 v2 v5 v8 v10 (ix2 p q)
      = max (v0 (ix2 p q) + (∑ k : Fin 128, v2 (ix2 p k) * v8 (ix2 q k)) + (∑ k : Fin 128, v5 (ix2 p k) * v10 (ix2 q k))) 0 := by
  unfold k2_pay1
  simp only [shapeCast_self]
  show max (v0 (ix2 p q)
        + matmul DT none (truncf .bf16 v2 bitsLt_bf16_f32) (truncf .bf16 v8 bitsLt_bf16_f32)
            (constant (F := Ideal) S4000x128 .f32 0x00000000#32) (ix2 p q)
        + matmul DT none (truncf .bf16 v5 bitsLt_bf16_f32) (truncf .bf16 v10 bitsLt_bf16_f32)
            (constant (F := Ideal) S4000x128 .f32 0x00000000#32) (ix2 p q))
      (Ideal.ofBits .f32 0x00000000#32) = _
  rw [matmulT_apply, matmulT_apply, Ideal.ofBits_zero_f32]
  rfl

end Cert.KernelIdeal.PayValue

end
-- ==== Proof.Array0.lean ====
/-
  The embedding call's two output arrays, whole, over the extended reals.

  The call's grid has 25 points. Point t is handed rows [4000 t, 4000 t + 4000) of the node features and the whole first
  weight matrix, and writes back the same rows of the product x · w1ᵀ and of its positive part. Entry (p, q) of a written
  block is the sum over k of block(p, k) · w1(q, k); the block's row p is the array's row 4000 t + p, and the weight matrix
  is read whole, so the written block is the block of the array-level product (resp. of its positive part) at the same
  rows. The 25 row blocks cover the array, so after the call each output array is that function of the two input arrays.
-/
import proofs.«149511_j13958643712644_2_alg».proof.Proof.Region0
import proofs.«149511_j13958643712644_2_alg».proof.Proof.PayMatmul
import proofs.«149511_j13958643712644_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Array0

open Cert.KernelIdeal Cert.KernelIdeal.Gen Cert.KernelIdeal.GenP Cert.KernelIdeal.Hand Cert.KernelIdeal.PayValue
open Idealize.ShloMosaic Idealize.ShloMosaic.TcCoe Idealize.SL.Sem Idealize.ShloMosaic.ValueIdx
open Idealize.ShloMosaic.Pipeline (Dat)
open Cert.GnnSpec (mulT relu)

-- the buffers' contents when the call is entered
variable (V : (c : Dev nD) → (b : Ref sig .tc) → Buf (Elt Ideal) ((c : Thread nD τ).loc b))

/-- The body's loads and stores are at offset zero on both axes. -/
theorem hz : (![0, 0] : Fin 2 → Nat) = fun _ => 0 := funext fun a => by fin_cases a <;> rfl

/-- The windows' block indices at point t: the node features and both outputs are on row block t, column block 0; the
    weight matrix is always its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The product array -/

/-- What point t writes back to the product array is block t of x · w1ᵀ. -/
theorem flushed0_2_eq (c : Dev nD) (t : Fin cfg0.N) :
    (dat0 V c).flushed 2 t = ((cfg0.win 2).blk t).view.read (Elt Ideal) (mulT (V c main_arg0) (V c main_arg2)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  obtain ⟨e00, e01, e10, e11, e20, e21, -, -⟩ := idx_facts0 t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (ix2 p q)
      = mulT (V c main_arg0) (V c main_arg2) (((cfg0.win 2).blk t).view.emb (ix2 p q))
  refine (k0_pay1_apply (iblk0 V c 0 t) (iblk0 V c 1 t) p q).trans ?_
  unfold mulT
  refine Finset.sum_congr rfl fun k _ => ?_
  have h0 : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  have h1 : iblk0 V c 1 t (ix2 q k) = V c main_arg2 (ix2 ((((cfg0.win 2).blk t).view.emb (ix2 p q)) 1) k) := by
    show V c main_arg2 (((cfg0.win 1).blk t).view.emb (ix2 q k)) = _
    refine congrArg (V c main_arg2) (funext fun a => Fin.ext ?_)
    match a with
    | ⟨0, _⟩ => show win0_1.index t (0 : Fin 2) * 128 + 1 * q.val = win0_2.index t (1 : Fin 2) * 128 + 1 * q.val; omega
    | ⟨1, _⟩ => show win0_1.index t (1 : Fin 2) * 128 + 1 * k.val = k.val; omega
  rw [h0, h1]

/-- An index of the array is in point t's block iff each coordinate is in the block's range on its axis. -/
theorem mem_blk0_2 (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v4_0).slice (win0_2.rect t)).set ↔ _
  rw [View.set_slice_whole, Rect.mem_set_unit]
  exact Iff.rfl

/-- Every index of the array is in some point's block: row r is in the block of point r / 4000. -/
theorem cover0_2 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  obtain ⟨t, ht⟩ : ∃ t : Fin cfg0.N, t.val = (i 0).val / 4000 :=
    ⟨⟨(i 0).val / 4000, by show (i 0).val / 4000 < grid0.N; omega⟩, rfl⟩
  obtain ⟨-, -, -, -, e20, e21, -, -⟩ := idx_facts0 t
  refine ⟨t, flush0_2 t, ?_⟩
  rw [mem_blk0_2]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- After the call the product array is x · w1ᵀ: entry (n, j) is the sum over k of x(n, k) · w1(j, k). -/
theorem arrAt0_2 (c : Dev nD) : (dat0 V c).arrAt 2 cfg0.N = mulT (V c main_arg0) (V c main_arg2) :=
  (dat0 V c).arrAt_eq_of_cover 2 (mulT (V c main_arg0) (V c main_arg2)) (fun t _ => flushed0_2_eq V c t) cover0_2

/-! ## The positive-part array -/

/-- What point t writes back to the positive-part array is block t of max(x · w1ᵀ, 0). -/
theorem flushed0_3_eq (c : Dev nD) (t : Fin cfg0.N) :
    (dat0 V c).flushed 3 t = ((cfg0.win 3).blk t).view.read (Elt Ideal) (relu (mulT (V c main_arg0) (V c main_arg2))) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz]
  obtain ⟨e00, e01, e10, e11, -, -, e30, e31⟩ := idx_facts0 t
  funext j
  obtain ⟨p, q, rfl⟩ : ∃ (p : Fin 4000) (q : Fin 128), j = ix2 p q := ⟨j 0, j 1, eq_ix2 j⟩
  show k0_pay2 (F := Ideal) (iblk0 V c 0 t) (iblk0 V c 1 t) (ix2 p q)
      = relu (mulT (V c main_arg0) (V c main_arg2)) (((cfg0.win 3).blk t).view.emb (ix2 p q))
  refine (k0_pay2_apply (iblk0 V c 0 t) (iblk0 V c 1 t) p q).trans ?_
  unfold relu mulT
  refine congrArg (fun s : EReal => max s 0) (Finset.sum_congr rfl fun k _ => ?_)
  have h0 : iblk0 V c 0 t (ix2 p k) = V c main_arg0 (ix2 ((((cfg0.win 3).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = win0_3.index t (0 : Fin 2) * 4000 + 1 * p.val; omega
    | ⟨1, _⟩ => show win0_0.index t (1 : Fin 2) * 128 + 1 * k.val = k.val; omega
  have h1 : iblk0 V c 1 t (ix2 q k) = V c main_arg2 (ix2 ((((cfg0.win 3).blk t).view.emb (ix2 p q)) 1) k) := by
    show V c main_arg2 (((cfg0.win 1).blk t).view.emb (ix2 q k)) = _
    refine congrArg (V c main_arg2) (funext fun a => Fin.ext ?_)
    match a with
    | ⟨0, _⟩ => show win0_1.index t (0 : Fin 2) * 128 + 1 * q.val = win0_3.index t (1 : Fin 2) * 128 + 1 * q.val; omega
    | ⟨1, _⟩ => show win0_1.index t (1 : Fin 2) * 128 + 1 * k.val = k.val; omega
  rw [h0, h1]

theorem mem_blk0_3 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v4_1).slice (win0_3.rect t)).set ↔ _
  rw [View.set_slice_whole, Rect.mem_set_unit]
  exact Iff.rfl

theorem cover0_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 25 := N_0
  obtain ⟨t, ht⟩ : ∃ t : Fin cfg0.N, t.val = (i 0).val / 4000 :=
    ⟨⟨(i 0).val / 4000, by show (i 0).val / 4000 < grid0.N; omega⟩, rfl⟩
  obtain ⟨-, -, -, -, -, -, e30, e31⟩ := idx_facts0 t
  refine ⟨t, flush0_3 t, ?_⟩
  rw [mem_blk0_3]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- After the call the positive-part array is max(x · w1ᵀ, 0), entry by entry. -/
theorem arrAt0_3 (c : Dev nD) : (dat0 V c).arrAt 3 cfg0.N = relu (mulT (V c main_arg0) (V c main_arg2)) :=
  (dat0 V c).arrAt_eq_of_cover 3 (relu (mulT (V c main_arg0) (V c main_arg2))) (fun t _ => flushed0_3_eq V c t) cover0_3

end Cert.KernelIdeal.Array0

namespace Cert.KernelIdeal.Hand

open Cert.KernelIdeal Cert.KernelIdeal.Gen Cert.KernelIdeal.GenP
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The embedding call's first output, whole: the product of the call's first input array by the transpose of its second. -/
theorem arr0_2 (c : Dev nD) : (dat0 V c).arrAt 2 cfg0.N
    = Cert.GnnSpec.mulT (V c (Pipeline.arrRef spec0 0)) (V c (Pipeline.arrRef spec0 1)) :=
  Cert.KernelIdeal.Array0.arrAt0_2 V c

/-- The embedding call's second output, whole: the positive part of that product. -/
theorem arr0_3 (c : Dev nD) : (dat0 V c).arrAt 3 cfg0.N
    = Cert.GnnSpec.relu (Cert.GnnSpec.mulT (V c (Pipeline.arrRef spec0 0)) (V c (Pipeline.arrRef spec0 1))) :=
  Cert.KernelIdeal.Array0.arrAt0_3 V c

end Cert.KernelIdeal.Hand

end
-- ==== Proof.Array1.lean ====
/-
  The first update call's output array, whole, over the extended reals.

  The call's grid has 25 points. Point t is handed rows [4000 t, 4000 t + 4000) of three node arrays — the embedded
  features xe and the two edge aggregations a, b of the current state — and the whole second and third weight matrices,
  and writes back the same rows of the new state. Entry (p, q) of the written block is the positive part of
  xe(p, q) + Σₖ a(p, k) · w2(q, k) + Σₖ b(p, k) · w3(q, k), the blocks' row p being the arrays' row 4000 t + p and the weight
  matrices being read whole; so the written block is the block, at the same rows, of the array-level update
  max(xe + a · w2ᵀ + b · w3ᵀ, 0). The 25 row blocks cover the array, so after the call the output array is that function
  of the five input arrays.
-/
import proofs.«149511_j13958643712644_2_alg».proof.Proof.Region1
import proofs.«149511_j13958643712644_2_alg».proof.Proof.PayMatmul
import proofs.«149511_j13958643712644_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Array1

open Cert.KernelIdeal Cert.KernelIdeal.Gen Cert.KernelIdeal.GenP Cert.KernelIdeal.Hand Cert.KernelIdeal.PayValue
open Idealize.ShloMosaic Idealize.ShloMosaic.TcCoe Idealize.SL.Sem Idealize.ShloMosaic.ValueIdx
open Idealize.ShloMosaic.Pipeline (Dat)
open Cert.GnnSpec (mulT update)

-- the buffers' contents when the call is entered
variable (V : (c : Dev nD) → (b : Ref sig .tc) → Buf (Elt Ideal) ((c : Thread nD τ).loc b))

/-- The body's loads and stores are at offset zero on both axes. -/
theorem hz : (![0, 0] : Fin 2 → Nat) = fun _ => 0 := funext fun a => by fin_cases a <;> rfl

/-- The windows' block indices at point t: the three node arrays and the output are on row block t, column block 0; each
    weight matrix is always its one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the array-level update. -/
theorem flushed1_5_eq (c : Dev nD) (t : Fin cfg1.N) :
    (dat1 V c).flushed 5 t = ((cfg1.win 5).blk t).view.read (Elt Ideal)
      (update (V c main_v4_0) (V c main_v15) (V c main_v26) (V c main_arg3) (V c main_arg4)) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz]
  obtain ⟨e00, e01, e10, e11, e20, e21, e30, e31, e40, e41, e50, e51⟩ := idx_facts1 t
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
      = update (V c main_v4_0) (V c main_v15) (V c main_v26) (V c main_arg3) (V c main_arg4)
          (((cfg1.win 5).blk t).view.emb (ix2 p q))
  refine (k1_pay1_apply (iblk1 V c 0 t) (iblk1 V c 1 t) (iblk1 V c 2 t) (iblk1 V c 3 t) (iblk1 V c 4 t) p q).trans ?_
  -- each block read where the output's rectangle says
  have hx : iblk1 V c 0 t (ix2 p q) = V c main_v4_0 (((cfg1.win 5).blk t).view.emb (ix2 p q)) := by
    show V c main_v4_0 (((cfg1.win 0).blk t).view.emb (ix2 p q)) = _
    refine congrArg (V c main_v4_0) (funext fun a => Fin.ext ?_)
    match a with
    | ⟨0, _⟩ => show win1_0.index t (0 : Fin 2) * 4000 + 1 * p.val = win1_5.index t (0 : Fin 2) * 4000 + 1 * p.val; omega
    | ⟨1, _⟩ => show win1_0.index t (1 : Fin 2) * 128 + 1 * q.val = win1_5.index t (1 : Fin 2) * 128 + 1 * q.val; omega
  have hA : ∀ k : Fin 128, iblk1 V c 1 t (ix2 p k) = V c main_v15 (ix2 ((((cfg1.win 5).blk t).view.emb (ix2 p q)) 0) k) := fun k => by
    show V c main_v15 (((cfg1.win 1).blk t).view.emb (ix2 p k)) = _
    refine congrArg (V c main_v15) (funext fun a => Fin.ext ?_)
    match a with
    | ⟨0, _⟩ => show win1_1.index t (0 : Fin 2) * 4000 + 1 * p.val = win1_5.index t (0 : Fin 2) * 4000 + 1 * p.val; omega
    | ⟨1, _⟩ => show win1_1.index t (1 : Fin 2) * 128 + 1 * k.val = k.val; omega
  have hB : ∀ k : Fin 128, iblk1 V c 2 t (ix2 p k) = V c main_v26 (ix2 ((((cfg1.win 5).blk t).view.emb (ix2 p q)) 0) k) := fun k => by
    show V c main_v26 (((cfg1.win 2).blk t).view.emb (ix2 p k)) = _
    refine congrArg (V c main_v26) (funext fun a => Fin.ext ?_)
    match a with
    | ⟨0, _⟩ => show win1_2.index t (0 : Fin 2) * 4000 + 1 * p.val = win1_5.index t (0 : Fin 2) * 4000 + 1 * p.val; omega
    | ⟨1, _⟩ => show win1_2.index t (1 : Fin 2) * 128 + 1 * k.val = k.val; omega
  have hW2 : ∀ k : Fin 128, iblk1 V c 3 t (ix2 q k) = V c main_arg3 (ix2 ((((cfg1.win 5).blk t).view.emb (ix2 p q)) 1) k) := fun k => by
    show V c main_arg3 (((cfg1.win 3).blk t).view.emb (ix2 q k)) = _
    refine congrArg (V c main_arg3) (funext fun a => Fin.ext ?_)
    match a with
    | ⟨0, _⟩ => show win1_3.index t (0 : Fin 2) * 128 + 1 * q.val = win1_5.index t (1 : Fin 2) * 128 + 1 * q.val; omega
    | ⟨1, _⟩ => show win1_3.index t (1 : Fin 2) * 128 + 1 * k.val = k.val; omega
  have hW3 : ∀ k : Fin 128, iblk1 V c 4 t (ix2 q k) = V c main_arg4 (ix2 ((((cfg1.win 5).blk t).view.emb (ix2 p q)) 1) k) := fun k => by
    show V c main_arg4 (((cfg1.win 4).blk t).view.emb (ix2 q k)) = _
    refine congrArg (V c main_arg4) (funext fun a => Fin.ext ?_)
    match a with
    | ⟨0, _⟩ => show win1_4.index t (0 : Fin 2) * 128 + 1 * q.val = win1_5.index t (1 : Fin 2) * 128 + 1 * q.val; omega
    | ⟨1, _⟩ => show win1_4.index t (1 : Fin 2) * 128 + 1 * k.val = k.val; omega
  unfold update mulT
  refine congrArg (fun s : EReal => max s 0) ?_
  refine congrArg₂ (· + ·) (congrArg₂ (· + ·) hx (Finset.sum_congr rfl fun k _ => ?_)) (Finset.sum_congr rfl fun k _ => ?_)
  · rw [hA k, hW2 k]
  · rw [hB k, hW3 k]

/-- An index of the array is in point t's block iff each coordinate is in the block's range on its axis. -/
theorem mem_blk1_5 (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v27).slice (win1_5.rect t)).set ↔ _
  rw [View.set_slice_whole, Rect.mem_set_unit]
  exact Iff.rfl

/-- Every index of the array is in some point's block: row r is in the block of point r / 4000. -/
theorem cover1_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 25 := N_1
  obtain ⟨t, ht⟩ : ∃ t : Fin cfg1.N, t.val = (i 0).val / 4000 :=
    ⟨⟨(i 0).val / 4000, by show (i 0).val / 4000 < grid1.N; omega⟩, rfl⟩
  obtain ⟨-, -, -, -, -, -, -, -, -, -, e50, e51⟩ := idx_facts1 t
  refine ⟨t, flush1_5 t, ?_⟩
  rw [mem_blk1_5]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- After the call the output array is the array-level update of the five input arrays. -/
theorem arrAt1_5 (c : Dev nD) : (dat1 V c).arrAt 5 cfg1.N
    = update (V c main_v4_0) (V c main_v15) (V c main_v26) (V c main_arg3) (V c main_arg4) :=
  (dat1 V c).arrAt_eq_of_cover 5 (update (V c main_v4_0) (V c main_v15) (V c main_v26) (V c main_arg3) (V c main_arg4))
    (fun t _ => flushed1_5_eq V c t) cover1_5

end Cert.KernelIdeal.Array1

namespace Cert.KernelIdeal.Hand

open Cert.KernelIdeal Cert.KernelIdeal.Gen Cert.KernelIdeal.GenP
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The first update call's output, whole: max(xe + a · w2ᵀ + b · w3ᵀ, 0) of the call's five input arrays, in the
    call's order. -/
theorem arr1_5 (c : Dev nD) : (dat1 V c).arrAt 5 cfg1.N
    = Cert.GnnSpec.update (V c (Pipeline.arrRef spec1 0)) (V c (Pipeline.arrRef spec1 1)) (V c (Pipeline.arrRef spec1 2))
        (V c (Pipeline.arrRef spec1 3)) (V c (Pipeline.arrRef spec1 4)) :=
  Cert.KernelIdeal.Array1.arrAt1_5 V c

end Cert.KernelIdeal.Hand

end
-- ==== Proof.Array2.lean ====
/-
  The second update call's output array, whole, over the extended reals.

  The call's grid has 25 points. Point t is handed rows [4000 t, 4000 t + 4000) of three node arrays — the embedded
  features xe and the two edge aggregations a, b of the current state — and the whole second and third weight matrices,
  and writes back the same rows of the new state. Entry (p, q) of the written block is the positive part of
  xe(p, q) + Σₖ a(p, k) · w2(q, k) + Σₖ b(p, k) · w3(q, k), the blocks' row p being the arrays' row 4000 t + p and the weight
  matrices being read whole; so the written block is the block, at the same rows, of the array-level update
  max(xe + a · w2ᵀ + b · w3ᵀ, 0). The 25 row blocks cover the array, so after the call the output array is that function
  of the five input arrays.
-/
import proofs.«149511_j13958643712644_2_alg».proof.Proof.Region2
import proofs.«149511_j13958643712644_2_alg».proof.Proof.PayMatmul
import proofs.«149511_j13958643712644_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Array2

open Cert.KernelIdeal Cert.KernelIdeal.Gen Cert.KernelIdeal.GenP Cert.KernelIdeal.Hand Cert.KernelIdeal.PayValue
open Idealize.ShloMosaic Idealize.ShloMosaic.TcCoe Idealize.SL.Sem Idealize.ShloMosaic.ValueIdx
open Idealize.ShloMosaic.Pipeline (Dat)
open Cert.GnnSpec (mulT update)

-- the buffers' contents when the call is entered
variable (V : (c : Dev nD) → (b : Ref sig .tc) → Buf (Elt Ideal) ((c : Thread nD τ).loc b))

/-- The body's loads and stores are at offset zero on both axes. -/
theorem hz : (![0, 0] : Fin 2 → Nat) = fun _ => 0 := funext fun a => by fin_cases a <;> rfl

/-- The windows' block indices at point t: the three node arrays and the output are on row block t, column block 0; each
    weight matrix is always its one block. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the array-level update. -/
theorem flushed2_5_eq (c : Dev nD) (t : Fin cfg2.N) :
    (dat2 V c).flushed 5 t = ((cfg2.win 5).blk t).view.read (Elt Ideal)
      (update (V c main_v4_0) (V c main_v38) (V c main_v49) (V c main_arg3) (V c main_arg4)) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x128) hz]
  obtain ⟨e00, e01, e10, e11, e20, e21, e30, e31, e40, e41, e50, e51⟩ := idx_facts2 t
  funext j
  obtain ⟨p, q, rfl⟩ : ∃ (p : Fin 4000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
      = update (V c main_v4_0) (V c main_v38) (V c main_v49) (V c main_arg3) (V c main_arg4)
          (((cfg2.win 5).blk t).view.emb (ix2 p q))
  refine (k2_pay1_apply (iblk2 V c 0 t) (iblk2 V c 1 t) (iblk2 V c 2 t) (iblk2 V c 3 t) (iblk2 V c 4 t) p q).trans ?_
  -- each block read where the output's rectangle says
  have hx : iblk2 V c 0 t (ix2 p q) = V c main_v4_0 (((cfg2.win 5).blk t).view.emb (ix2 p q)) := by
    show V c main_v4_0 (((cfg2.win 0).blk t).view.emb (ix2 p q)) = _
    refine congrArg (V c main_v4_0) (funext fun a => Fin.ext ?_)
    match a with
    | ⟨0, _⟩ => show win2_0.index t (0 : Fin 2) * 4000 + 1 * p.val = win2_5.index t (0 : Fin 2) * 4000 + 1 * p.val; omega
    | ⟨1, _⟩ => show win2_0.index t (1 : Fin 2) * 128 + 1 * q.val = win2_5.index t (1 : Fin 2) * 128 + 1 * q.val; omega
  have hA : ∀ k : Fin 128, iblk2 V c 1 t (ix2 p k) = V c main_v38 (ix2 ((((cfg2.win 5).blk t).view.emb (ix2 p q)) 0) k) := fun k => by
    show V c main_v38 (((cfg2.win 1).blk t).view.emb (ix2 p k)) = _
    refine congrArg (V c main_v38) (funext fun a => Fin.ext ?_)
    match a with
    | ⟨0, _⟩ => show win2_1.index t (0 : Fin 2) * 4000 + 1 * p.val = win2_5.index t (0 : Fin 2) * 4000 + 1 * p.val; omega
    | ⟨1, _⟩ => show win2_1.index t (1 : Fin 2) * 128 + 1 * k.val = k.val; omega
  have hB : ∀ k : Fin 128, iblk2 V c 2 t (ix2 p k) = V c main_v49 (ix2 ((((cfg2.win 5).blk t).view.emb (ix2 p q)) 0) k) := fun k => by
    show V c main_v49 (((cfg2.win 2).blk t).view.emb (ix2 p k)) = _
    refine congrArg (V c main_v49) (funext fun a => Fin.ext ?_)
    match a with
    | ⟨0, _⟩ => show win2_2.index t (0 : Fin 2) * 4000 + 1 * p.val = win2_5.index t (0 : Fin 2) * 4000 + 1 * p.val; omega
    | ⟨1, _⟩ => show win2_2.index t (1 : Fin 2) * 128 + 1 * k.val = k.val; omega
  have hW2 : ∀ k : Fin 128, iblk2 V c 3 t (ix2 q k) = V c main_arg3 (ix2 ((((cfg2.win 5).blk t).view.emb (ix2 p q)) 1) k) := fun k => by
    show V c main_arg3 (((cfg2.win 3).blk t).view.emb (ix2 q k)) = _
    refine congrArg (V c main_arg3) (funext fun a => Fin.ext ?_)
    match a with
    | ⟨0, _⟩ => show win2_3.index t (0 : Fin 2) * 128 + 1 * q.val = win2_5.index t (1 : Fin 2) * 128 + 1 * q.val; omega
    | ⟨1, _⟩ => show win2_3.index t (1 : Fin 2) * 128 + 1 * k.val = k.val; omega
  have hW3 : ∀ k : Fin 128, iblk2 V c 4 t (ix2 q k) = V c main_arg4 (ix2 ((((cfg2.win 5).blk t).view.emb (ix2 p q)) 1) k) := fun k => by
    show V c main_arg4 (((cfg2.win 4).blk t).view.emb (ix2 q k)) = _
    refine congrArg (V c main_arg4) (funext fun a => Fin.ext ?_)
    match a with
    | ⟨0, _⟩ => show win2_4.index t (0 : Fin 2) * 128 + 1 * q.val = win2_5.index t (1 : Fin 2) * 128 + 1 * q.val; omega
    | ⟨1, _⟩ => show win2_4.index t (1 : Fin 2) * 128 + 1 * k.val = k.val; omega
  unfold update mulT
  refine congrArg (fun s : EReal => max s 0) ?_
  refine congrArg₂ (· + ·) (congrArg₂ (· + ·) hx (Finset.sum_congr rfl fun k _ => ?_)) (Finset.sum_congr rfl fun k _ => ?_)
  · rw [hA k, hW2 k]
  · rw [hB k, hW3 k]

/-- An index of the array is in point t's block iff each coordinate is in the block's range on its axis. -/
theorem mem_blk2_5 (t : Fin cfg2.N) (i : S100000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v50).slice (win2_5.rect t)).set ↔ _
  rw [View.set_slice_whole, Rect.mem_set_unit]
  exact Iff.rfl

/-- Every index of the array is in some point's block: row r is in the block of point r / 4000. -/
theorem cover2_5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 25 := N_2
  obtain ⟨t, ht⟩ : ∃ t : Fin cfg2.N, t.val = (i 0).val / 4000 :=
    ⟨⟨(i 0).val / 4000, by show (i 0).val / 4000 < grid2.N; omega⟩, rfl⟩
  obtain ⟨-, -, -, -, -, -, -, -, -, -, e50, e51⟩ := idx_facts2 t
  refine ⟨t, flush2_5 t, ?_⟩
  rw [mem_blk2_5]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- After the call the output array is the array-level update of the five input arrays. -/
theorem arrAt2_5 (c : Dev nD) : (dat2 V c).arrAt 5 cfg2.N
    = update (V c main_v4_0) (V c main_v38) (V c main_v49) (V c main_arg3) (V c main_arg4) :=
  (dat2 V c).arrAt_eq_of_cover 5 (update (V c main_v4_0) (V c main_v38) (V c main_v49) (V c main_arg3) (V c main_arg4))
    (fun t _ => flushed2_5_eq V c t) cover2_5

end Cert.KernelIdeal.Array2

namespace Cert.KernelIdeal.Hand

open Cert.KernelIdeal Cert.KernelIdeal.Gen Cert.KernelIdeal.GenP
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The second update call's output, whole: max(xe + a · w2ᵀ + b · w3ᵀ, 0) of the call's five input arrays, in the
    call's order. -/
theorem arr2_5 (c : Dev nD) : (dat2 V c).arrAt 5 cfg2.N
    = Cert.GnnSpec.update (V c (Pipeline.arrRef spec2 0)) (V c (Pipeline.arrRef spec2 1)) (V c (Pipeline.arrRef spec2 2))
        (V c (Pipeline.arrRef spec2 3)) (V c (Pipeline.arrRef spec2 4)) :=
  Cert.KernelIdeal.Array2.arrAt2_5 V c

end Cert.KernelIdeal.Hand

end
-- ==== Proof.PayReduce.lean ====
/-
  The arithmetic of the column-sum call at one entry, over the extended reals.

  The call keeps a running row of 128 partial sums. At its first grid point it sets the row to zero; at every point it adds
  to the row, column by column, the sum of the 4000 rows of the block it was handed: the new entry q of the row is the old
  entry plus the sum over r of block(r, q). The row is kept with a leading axis of extent 1, so its entries are (0, q).
-/
import proofs.«149511_j13958643712644_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## A block's column sums -/

/-- Summing a [4000, 128] block along its rows: over column q, the block's index with row r inserted is (r, q). -/
theorem lift_col (q : Fin 128) (r : Fin 4000) : reduces_S4000x128_S128.lift (ix1 q) r = ix2 r q := by
  funext c
  refine Fin.ext ?_
  show Shape.Reduces.liftVal reduces_S4000x128_S128 (ix1 q) r.val c = (ix2 r q c).val
  unfold Shape.Reduces.liftVal
  match c with
  | ⟨0, _⟩ => rfl
  | ⟨1, _⟩ => rfl

/-- The sum along the rows, read at column q: the sum over r of block(r, q). (The hypotheses are typed as the call's
    own: the accumulator word is the zero word.) -/
theorem colReduce_apply (src : FVec Ideal S4000x128 .f32) (hφ : FKind.Formats .f32)
    (hacc : (0x00000000#32 : BitVec 32) = 0x00000000#32) (q : Fin 128) :
    multiReduction (F := Ideal) .add [0] S128 src 0x00000000#32 reduces_S4000x128_S128 hφ hacc (ix1 q)
      = ∑ r : Fin 4000, src (ix2 r q) := by
  refine (Ideal.multiReduction_add_single src 0x00000000#32 reduces_S4000x128_S128 hφ hacc (ix1 q)).trans ?_
  exact Finset.sum_congr rfl fun r _ => congrArg src (lift_col q r)

/-! ## The call's two stores -/

/-- The row the first grid point starts from is zero. -/
theorem k3_pay1_apply (q : Fin 128) : k3_pay1 (F := Ideal) (ix2 (0 : Fin 1) q) = 0 := by
  unfold k3_pay1
  simp only [shapeCast_self]
  show Ideal.ofBits .f32 0x00000000#32 = 0
  exact Ideal.ofBits_zero_f32

/-- The row after a grid point: entry q is the old entry plus the block's column sum. -/
theorem k3_pay2_apply (v3 : Vec Ideal S1x128 .f32) (v4 : Vec Ideal S4000x128 .f32) (q : Fin 128) :
    k3_pay2 (F := Ideal) v3 v4 (ix2 (0 : Fin 1) q) = v3 (ix2 (0 : Fin 1) q) + ∑ r : Fin 4000, v4 (ix2 r q) := by
  unfold k3_pay2
  simp only [shapeCast_self]
  show v3 (ix2 (0 : Fin 1) q)
      + shapeCast S1x128 (multiReduction (F := Ideal) .add [0] S128 v4 0x00000000#32 reduces_S4000x128_S128 (.inl rfl) rfl)
          shapeCasts_S128_S1x128 (ix2 (0 : Fin 1) q) = _
  rw [shapeCast_a_1a_apply, colReduce_apply]

end Cert.KernelIdeal.PayValue

end
-- ==== Proof.LibBlockSum.lean ====
/-
  A sum over the first m · n naturals, taken block by block.

  The numbers below m · n are exactly the numbers n · t + r with t below m and r below n, each once (division with
  remainder by n). So a sum over them, in any additive commutative monoid, is the sum over the m blocks of the sums over
  each block's n members.
-/
import Mathlib.Data.Fintype.BigOperators
import Mathlib.Logic.Equiv.Fin.Basic

open scoped BigOperators

namespace Cert.BlockSum

/-- Member r of block t is below m · n. -/
theorem blk_lt {m n : ℕ} (t : Fin m) (r : Fin n) : n * t.val + r.val < m * n :=
  calc n * t.val + r.val < n * t.val + n := Nat.add_lt_add_left r.isLt _
    _ = n * (t.val + 1) := (Nat.mul_succ _ _).symm
    _ ≤ n * m := Nat.mul_le_mul_left _ t.isLt
    _ = m * n := Nat.mul_comm _ _

/-- A sum over `Fin N` with `N = m · n` is the sum over the m blocks of the sums over each block's n members,
    member r of block t being n · t + r. -/
theorem sum_fin_blocks {M : Type*} [AddCommMonoid M] {N : ℕ} (m n : ℕ) (h : N = m * n) (f : Fin N → M) :
    ∑ i : Fin N, f i = ∑ t : Fin m, ∑ r : Fin n, f ⟨n * t.val + r.val, h ▸ blk_lt t r⟩ := by
  subst h
  rw [← Equiv.sum_comp finProdFinEquiv f, Fintype.sum_prod_type]
  refine Finset.sum_congr rfl fun t _ => Finset.sum_congr rfl fun r _ => congrArg f (Fin.ext ?_)
  show r.val + n * t.val = n * t.val + r.val
  exact Nat.add_comm _ _

/-- The same for a family indexed by the naturals: the sum of g over the numbers below m · n is the sum, block by block,
    of g (n · t + r). -/
theorem sum_range_blocks {M : Type*} [AddCommMonoid M] (m n : ℕ) (g : ℕ → M) :
    ∑ i : Fin (m * n), g i.val = ∑ t : Fin m, ∑ r : Fin n, g (n * t.val + r.val) :=
  sum_fin_blocks m n rfl fun i => g i.val

end Cert.BlockSum
-- ==== Proof.ColSum3.lean ====
/-
  The column-sum call's output, over the extended reals.

  The call keeps a running row of 128 partial sums: zero before the first of its 25 grid points, and after point t the row
  before it plus, column by column, the sum of rows [4000 t, 4000 t + 4000) of the state array. So after n points entry q of
  the row is the sum of the state's column q over the first 4000 n rows, and after all 25 points over all 100000 rows:
  the rows below 100000 are exactly the rows 4000 t + r with t below 25 and r below 4000. The output array is the row after
  the last point.
-/
import proofs.«149511_j13958643712644_2_alg».proof.Proof.Region3
import proofs.«149511_j13958643712644_2_alg».proof.Proof.PayReduce
import proofs.«149511_j13958643712644_2_alg».proof.Proof.LibBlockSum
import proofs.«149511_j13958643712644_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ColSum3

open Cert.KernelIdeal Cert.KernelIdeal.Gen Cert.KernelIdeal.GenP Cert.KernelIdeal.Hand Cert.KernelIdeal.PayValue
open Idealize.ShloMosaic Idealize.ShloMosaic.TcCoe Idealize.SL.Sem Idealize.ShloMosaic.ValueIdx
open Idealize.ShloMosaic.Pipeline (Dat)

-- the buffers' contents when the call is entered
variable (V : (c : Dev nD) → (b : Ref sig .tc) → Buf (Elt Ideal) ((c : Thread nD τ).loc b))

/-- The state's column q as a family over the naturals (zero past the last row). -/
def col (c : Dev nD) (q : Fin 128) : ℕ → EReal :=
  fun m => if h : m < 100000 then V c main_v50 (ix2 (⟨m, h⟩ : Fin 100000) q) else 0

/-- The input window's block index at point t: row block t, column block 0. -/
theorem idx_facts3 : ∀ t : Fin cfg3.N, win3_0.index t (0 : Fin 2) = t.val ∧ win3_0.index t (1 : Fin 2) = 0 :=
  (by decide +kernel : ∀ t : Fin grid3.N, _)

/-- Row r of the block handed to point t is row 4000 t + r of the state. -/
theorem blk3_read (c : Dev nD) (t : Fin cfg3.N) (r : Fin 4000) (q : Fin 128) :
    iblk3 V c 0 t (ix2 r q) = col V c q (4000 * t.val + r.val) := by
  obtain ⟨e0, e1⟩ := idx_facts3 t
  have ht : t.val < 25 := lt_of_lt_of_eq t.isLt (show cfg3.N = 25 from N_3)
  have hr : r.val < 4000 := r.isLt
  have hlt : 4000 * t.val + r.val < 100000 := by omega
  unfold col
  rw [dif_pos hlt]
  show V c main_v50 (((cfg3.win 0).blk t).view.emb (ix2 r q)) = _
  refine congrArg (V c main_v50) (funext fun a => Fin.ext ?_)
  match a with
  | ⟨0, _⟩ => show win3_0.index t (0 : Fin 2) * 4000 + 1 * r.val = 4000 * t.val + r.val; omega
  | ⟨1, _⟩ => show win3_0.index t (1 : Fin 2) * 128 + 1 * q.val = q.val; omega

/-- After the first n points, entry q of the running row is the sum of the state's column q over the first n row blocks. -/
theorem acc3_apply (c : Dev nD) (q : Fin 128) : ∀ n : ℕ, n ≤ 25 →
    acc3 V c n (ix2 (0 : Fin 1) q) = ∑ t ∈ Finset.range n, ∑ r : Fin 4000, col V c q (4000 * t + r.val)
  | 0, _ => by
    rw [Finset.range_zero, Finset.sum_empty]
    exact k3_pay1_apply q
  | n + 1, hn => by
    have h : n < cfg3.N := lt_of_lt_of_eq (show n < 25 by omega) (show cfg3.N = 25 from N_3).symm
    refine (congrFun (acc3_step V c n h) (ix2 (0 : Fin 1) q)).trans ?_
    refine (k3_pay2_apply (acc3 V c n) (iblk3 V c 0 ⟨n, h⟩) q).trans ?_
    rw [Finset.sum_range_succ, acc3_apply c q n (by omega)]
    exact congrArg _ (Finset.sum_congr rfl fun r _ => blk3_read V c ⟨n, h⟩ r q)

/-- The sum of the column family over all 25 row blocks is the sum of the state's column q over all its rows. -/
theorem col_total (c : Dev nD) (q : Fin 128) :
    ∑ t ∈ Finset.range 25, ∑ r : Fin 4000, col V c q (4000 * t + r.val)
      = Cert.GnnSpec.colSum (V c main_v50) (ix1 q) := by
  rw [Finset.sum_range fun t => ∑ r : Fin 4000, col V c q (4000 * t + r.val)]
  have hs := Cert.BlockSum.sum_fin_blocks (N := 100000) 25 4000 (by norm_num) (fun i : Fin 100000 => col V c q i.val)
  refine hs.symm.trans ?_
  unfold Cert.GnnSpec.colSum
  exact Finset.sum_congr rfl fun i _ => dif_pos i.isLt

/-- After the call, entry q of the output row is the sum of the state's column q over all 100000 rows. -/
theorem arrAt3_1_apply (c : Dev nD) (q : Fin 128) :
    (dat3 V c).arrAt 1 cfg3.N (ix2 (0 : Fin 1) q) = Cert.GnnSpec.colSum (V c main_v50) (ix1 q) := by
  refine (congrFun (arrAt3_1 V c) (ix2 (0 : Fin 1) q)).trans ?_
  refine (acc3_apply V c q 25 (Nat.le_refl _)).trans ?_
  exact col_total V c q

end Cert.KernelIdeal.ColSum3

namespace Cert.KernelIdeal.Hand

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The column-sum call's output at (0, q): the sum over all 100000 rows n of the call's input array at (n, q). -/
theorem colSum3 (c : Dev nD) (q : Fin 128) :
    (dat3 V c).arrAt 1 cfg3.N (ix2 (0 : Fin 1) q) = Cert.GnnSpec.colSum (V c (Pipeline.arrRef spec3 0)) (ix1 q) :=
  Cert.KernelIdeal.ColSum3.arrAt3_1_apply V c q

end Cert.KernelIdeal.Hand

end
-- ==== Proof.KFold.lean ====
/-
  The idealized kernel program's result, read through the run's fold of buffer contents. With `x`, `e`, `w1`, `w2`, `w3` the
  five arguments as launched and `r0`, `r1` the two rows of `e`: the embedding call leaves `xe = x · w1ᵀ` and its positive
  part `mu1`; each pair of host aggregations leaves `aggK r0 r1 mu` and `aggK r1 r0 mu` of the state `mu` just written;
  each update call leaves `max(xe + in · w2ᵀ + out · w3ᵀ, 0)`; the last call leaves the column sums, which the last host
  line reshapes. No line in between disturbs a buffer a later line reads. So the result is the specification's `G` at the
  kernel program's two aggregation maps.
-/
import proofs.«149511_j13958643712644_2_alg».proof.Proof.Run
import proofs.«149511_j13958643712644_2_alg».proof.Proof.KAgg
import proofs.«149511_j13958643712644_2_alg».proof.Proof.Spec
import Idealize.ShloMosaic.Lib.ValueLayout
import Idealize.ShloMosaic.Lib.ValueIdx
import proofs.«149511_j13958643712644_2_alg».proof.Proof.Array0
import proofs.«149511_j13958643712644_2_alg».proof.Proof.Array1
import proofs.«149511_j13958643712644_2_alg».proof.Proof.Array2
import proofs.«149511_j13958643712644_2_alg».proof.Proof.ColSum3

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.StableHlo
open Cert.GnnSpec (mulT relu update colSum)

variable (m : (ℓ : Loc nD τ sig) → Buf (Elt Ideal) ℓ) (ρ : Dev nD → PrngReg) (c : Dev nD)

/-- The arguments as launched, on core `c`. -/
abbrev aX := m ((c : Thread nD τ).loc main_arg0)
abbrev aE := m ((c : Thread nD τ).loc main_arg1)
abbrev aW1 := m ((c : Thread nD τ).loc main_arg2)
abbrev aW2 := m ((c : Thread nD τ).loc main_arg3)
abbrev aW3 := m ((c : Thread nD τ).loc main_arg4)
/-- The embedding, the three states. -/
abbrev xeK := mulT (aX m c) (aW1 m c)
abbrev mu1K := relu (xeK m c)
abbrev mu2K := update (xeK m c) (aggK (rowK0 (aE m c)) (rowK1 (aE m c)) (mu1K m c)) (aggK (rowK1 (aE m c)) (rowK0 (aE m c)) (mu1K m c)) (aW2 m c) (aW3 m c)
abbrev mu3K := update (xeK m c) (aggK (rowK0 (aE m c)) (rowK1 (aE m c)) (mu2K m c)) (aggK (rowK1 (aE m c)) (rowK0 (aE m c)) (mu2K m c)) (aW2 m c) (aW3 m c)

/-! ## After the first host stretch -/
theorem w1_arg0 : W1 m ρ c (Proc.devRef .tc main_arg0) = m ((c : Thread nD τ).loc main_arg0) :=
  StableHlo.after_of_writes_sub hostOps0 _ hostOps0_writes (by decide)
theorem w1_arg2 : W1 m ρ c (Proc.devRef .tc main_arg2) = m ((c : Thread nD τ).loc main_arg2) :=
  StableHlo.after_of_writes_sub hostOps0 _ hostOps0_writes (by decide)
theorem w1_arg3 : W1 m ρ c (Proc.devRef .tc main_arg3) = m ((c : Thread nD τ).loc main_arg3) :=
  StableHlo.after_of_writes_sub hostOps0 _ hostOps0_writes (by decide)
theorem w1_arg4 : W1 m ρ c (Proc.devRef .tc main_arg4) = m ((c : Thread nD τ).loc main_arg4) :=
  StableHlo.after_of_writes_sub hostOps0 _ hostOps0_writes (by decide)
theorem w1_v1 : W1 m ρ c (Proc.devRef .tc main_v1) = rowK0 (aE m c) := host0_v1 (W0 m ρ c)
theorem w1_v3 : W1 m ρ c (Proc.devRef .tc main_v3) = rowK1 (aE m c) := host0_v3 (W0 m ρ c)

/-! ## After the embedding call -/
theorem w2_v4_0 : W2 m ρ c (Proc.devRef .tc main_v4_0) = xeK m c := by
  refine (W2_arr m ρ c 2).trans ((arr0_2 (V1 m ρ) c).trans ?_)
  show mulT (W1 m ρ c (Proc.devRef .tc main_arg0)) (W1 m ρ c (Proc.devRef .tc main_arg2)) = _
  rw [w1_arg0, w1_arg2]
theorem w2_v4_1 : W2 m ρ c (Proc.devRef .tc main_v4_1) = mu1K m c := by
  refine (W2_arr m ρ c 3).trans ((arr0_3 (V1 m ρ) c).trans ?_)
  show relu (mulT (W1 m ρ c (Proc.devRef .tc main_arg0)) (W1 m ρ c (Proc.devRef .tc main_arg2))) = _
  rw [w1_arg0, w1_arg2]
theorem w2_arg3 : W2 m ρ c (Proc.devRef .tc main_arg3) = aW2 m c := (W2_of_ne m ρ c main_arg3 (by decide)).trans (w1_arg3 m ρ c)
theorem w2_arg4 : W2 m ρ c (Proc.devRef .tc main_arg4) = aW3 m c := (W2_of_ne m ρ c main_arg4 (by decide)).trans (w1_arg4 m ρ c)
theorem w2_v1 : W2 m ρ c (Proc.devRef .tc main_v1) = rowK0 (aE m c) := (W2_of_ne m ρ c main_v1 (by decide)).trans (w1_v1 m ρ c)
theorem w2_v3 : W2 m ρ c (Proc.devRef .tc main_v3) = rowK1 (aE m c) := (W2_of_ne m ρ c main_v3 (by decide)).trans (w1_v3 m ρ c)

/-! ## After the first pair of aggregations -/
theorem w3_v15 : W3 m ρ c (Proc.devRef .tc main_v15) = aggK (rowK0 (aE m c)) (rowK1 (aE m c)) (mu1K m c) := by
  refine (host1_v15 (W2 m ρ c)).trans ?_
  rw [w2_v1, w2_v3, w2_v4_1]
theorem w3_v26 : W3 m ρ c (Proc.devRef .tc main_v26) = aggK (rowK1 (aE m c)) (rowK0 (aE m c)) (mu1K m c) := by
  refine (host1_v26 (W2 m ρ c)).trans ?_
  rw [w2_v1, w2_v3, w2_v4_1]
theorem w3_v4_0 : W3 m ρ c (Proc.devRef .tc main_v4_0) = xeK m c := (StableHlo.after_of_writes_sub hostOps1 _ hostOps1_writes (by decide) : W3 m ρ c (Proc.devRef .tc main_v4_0) = W2 m ρ c (Proc.devRef .tc main_v4_0)).trans (w2_v4_0 m ρ c)
theorem w3_arg3 : W3 m ρ c (Proc.devRef .tc main_arg3) = aW2 m c := (StableHlo.after_of_writes_sub hostOps1 _ hostOps1_writes (by decide) : W3 m ρ c (Proc.devRef .tc main_arg3) = W2 m ρ c (Proc.devRef .tc main_arg3)).trans (w2_arg3 m ρ c)
theorem w3_arg4 : W3 m ρ c (Proc.devRef .tc main_arg4) = aW3 m c := (StableHlo.after_of_writes_sub hostOps1 _ hostOps1_writes (by decide) : W3 m ρ c (Proc.devRef .tc main_arg4) = W2 m ρ c (Proc.devRef .tc main_arg4)).trans (w2_arg4 m ρ c)
theorem w3_v1 : W3 m ρ c (Proc.devRef .tc main_v1) = rowK0 (aE m c) := (StableHlo.after_of_writes_sub hostOps1 _ hostOps1_writes (by decide) : W3 m ρ c (Proc.devRef .tc main_v1) = W2 m ρ c (Proc.devRef .tc main_v1)).trans (w2_v1 m ρ c)
theorem w3_v3 : W3 m ρ c (Proc.devRef .tc main_v3) = rowK1 (aE m c) := (StableHlo.after_of_writes_sub hostOps1 _ hostOps1_writes (by decide) : W3 m ρ c (Proc.devRef .tc main_v3) = W2 m ρ c (Proc.devRef .tc main_v3)).trans (w2_v3 m ρ c)

/-! ## After the first update call -/
theorem w4_v27 : W4 m ρ c (Proc.devRef .tc main_v27) = mu2K m c := by
  refine (W4_arr m ρ c 5).trans ((arr1_5 (V3 m ρ) c).trans ?_)
  show update (W3 m ρ c (Proc.devRef .tc main_v4_0)) (W3 m ρ c (Proc.devRef .tc main_v15)) (W3 m ρ c (Proc.devRef .tc main_v26))
    (W3 m ρ c (Proc.devRef .tc main_arg3)) (W3 m ρ c (Proc.devRef .tc main_arg4)) = _
  rw [w3_v4_0, w3_v15, w3_v26, w3_arg3, w3_arg4]
theorem w4_v4_0 : W4 m ρ c (Proc.devRef .tc main_v4_0) = xeK m c :=
  ((W4_arr m ρ c 0).trans (((dat1 (V3 m ρ) c).arrAt_in 0 rfl _).trans (A_eq1 (V3 m ρ) c 0))).trans (w3_v4_0 m ρ c)
theorem w4_arg3 : W4 m ρ c (Proc.devRef .tc main_arg3) = aW2 m c :=
  ((W4_arr m ρ c 3).trans (((dat1 (V3 m ρ) c).arrAt_in 3 rfl _).trans (A_eq1 (V3 m ρ) c 3))).trans (w3_arg3 m ρ c)
theorem w4_arg4 : W4 m ρ c (Proc.devRef .tc main_arg4) = aW3 m c :=
  ((W4_arr m ρ c 4).trans (((dat1 (V3 m ρ) c).arrAt_in 4 rfl _).trans (A_eq1 (V3 m ρ) c 4))).trans (w3_arg4 m ρ c)
theorem w4_v1 : W4 m ρ c (Proc.devRef .tc main_v1) = rowK0 (aE m c) := (W4_of_ne m ρ c main_v1 (by decide)).trans (w3_v1 m ρ c)
theorem w4_v3 : W4 m ρ c (Proc.devRef .tc main_v3) = rowK1 (aE m c) := (W4_of_ne m ρ c main_v3 (by decide)).trans (w3_v3 m ρ c)

/-! ## After the second pair of aggregations -/
theorem w5_v38 : W5 m ρ c (Proc.devRef .tc main_v38) = aggK (rowK0 (aE m c)) (rowK1 (aE m c)) (mu2K m c) := by
  refine (host2_v38 (W4 m ρ c)).trans ?_
  rw [w4_v1, w4_v3, w4_v27]
theorem w5_v49 : W5 m ρ c (Proc.devRef .tc main_v49) = aggK (rowK1 (aE m c)) (rowK0 (aE m c)) (mu2K m c) := by
  refine (host2_v49 (W4 m ρ c)).trans ?_
  rw [w4_v1, w4_v3, w4_v27]
theorem w5_v4_0 : W5 m ρ c (Proc.devRef .tc main_v4_0) = xeK m c := (StableHlo.after_of_writes_sub hostOps2 _ hostOps2_writes (by decide) : W5 m ρ c (Proc.devRef .tc main_v4_0) = W4 m ρ c (Proc.devRef .tc main_v4_0)).trans (w4_v4_0 m ρ c)
theorem w5_arg3 : W5 m ρ c (Proc.devRef .tc main_arg3) = aW2 m c := (StableHlo.after_of_writes_sub hostOps2 _ hostOps2_writes (by decide) : W5 m ρ c (Proc.devRef .tc main_arg3) = W4 m ρ c (Proc.devRef .tc main_arg3)).trans (w4_arg3 m ρ c)
theorem w5_arg4 : W5 m ρ c (Proc.devRef .tc main_arg4) = aW3 m c := (StableHlo.after_of_writes_sub hostOps2 _ hostOps2_writes (by decide) : W5 m ρ c (Proc.devRef .tc main_arg4) = W4 m ρ c (Proc.devRef .tc main_arg4)).trans (w4_arg4 m ρ c)

/-! ## After the second update call, the column-sum call and the last host line -/
theorem w6_v50 : W6 m ρ c (Proc.devRef .tc main_v50) = mu3K m c := by
  refine (W6_arr m ρ c 5).trans ((arr2_5 (V5 m ρ) c).trans ?_)
  show update (W5 m ρ c (Proc.devRef .tc main_v4_0)) (W5 m ρ c (Proc.devRef .tc main_v38)) (W5 m ρ c (Proc.devRef .tc main_v49))
    (W5 m ρ c (Proc.devRef .tc main_arg3)) (W5 m ρ c (Proc.devRef .tc main_arg4)) = _
  rw [w5_v4_0, w5_v38, w5_v49, w5_arg3, w5_arg4]

/-- The column-sum call leaves, at entry (0, q) of its [1, 128] result, the sum over all nodes of column `q` of the last state. -/
theorem w7_v51 (q : Fin 128) : W7 m ρ c (Proc.devRef .tc main_v51) (ValueIdx.ix2 (0 : Fin 1) q)
    = colSum (mu3K m c) (ValueIdx.ix1 q) := by
  refine (congrFun (W7_arr m ρ c 1) _).trans ((colSum3 (V6 m ρ) c q).trans ?_)
  show colSum (W6 m ρ c (Proc.devRef .tc main_v50)) (ValueIdx.ix1 q) = _
  rw [w6_v50]

/-- The result buffer ends at the column sums of the last state. -/
theorem w8_v52 : W8 m ρ c (Proc.devRef .tc main_v52) = colSum (mu3K m c) := by
  refine (host4_v52 (W7 m ρ c)).trans ?_
  funext j
  obtain ⟨q, rfl⟩ : ∃ q : Fin 128, j = ValueIdx.ix1 q := ⟨j 0, ValueIdx.eq_ix1 j⟩
  exact (ValueIdx.shapeCast_1a_a_apply _ _ q).trans (w7_v51 m ρ c q)

/-- The result is the specification's function at the program's own two aggregation maps. -/
theorem kernel_value : W8 m ρ c (Proc.devRef .tc main_v52)
    = Cert.GnnSpec.G (aggK (rowK0 (aE m c)) (rowK1 (aE m c))) (aggK (rowK1 (aE m c)) (rowK0 (aE m c))) (aX m c) (aW1 m c) (aW2 m c) (aW3 m c) :=
  (w8_v52 m ρ c).trans (by unfold Cert.GnnSpec.G Cert.GnnSpec.state; rfl)

end Cert.KernelIdeal.Hand

end
-- ==== Proof.KRegion0.lean ====
/-
  The embedding call (the first of the four kernel launches), of the program as printed (the word-level one: the same text in that program's own names), at any float instance and at any contents `V` of the
  buffers on entry. The grid has 25 points; point `t` takes rows [4000 t, 4000 t + 4000) of the node features (window 0)
  and the whole first weight matrix (window 1, brought in once), and writes the same rows of the product `x · w1ᵀ`
  (window 2) and of its positive part (window 3). Each output block is stored whole by one store, so what the body leaves
  in an output's buffer is that store's value, a function of the two input blocks alone; the inputs' buffers are left as
  found. From this: the per-point proof data, and the body's obligation at every point.
-/
import proofs.«149511_j13958643712644_2_alg».proof.Proof.KernelLaunchP
import proofs.«149511_j13958643712644_2_alg».proof.Proof.Gen.Kernel.Skeleton
import proofs.«149511_j13958643712644_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node-feature window's buffer holds its block at every point: it is fetched at every point and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole matrix at every point: fetched at the first point, its block index never
    moves afterwards and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rN0 : Rect S4000x128 := Rect.unit (s := S4000x128) ![0, 0] S4000x128.size inb_S4000x128_S4000x128_0_0
abbrev rW0 : Rect S128x128 := Rect.unit (s := S128x128) ![0, 0] S128x128.size inb_S128x128_S128x128_0_0

/-! ## What the body leaves in each output's buffer -/

/-- The product block: the one store into window 2's buffer, of the matrix product of the two loaded blocks. -/
def out0_2 (x0 : Vec F S4000x128 .f32) (x1 : Vec F S128x128 .f32) : Vec F S4000x128 .f32 :=
  View.canon [⟨rN0, k0_pay1 (View.ld x0 rN0) (View.ld x1 rW0)⟩]

/-- The positive-part block: the one store into window 3's buffer. -/
def out0_3 (x0 : Vec F S4000x128 .f32) (x1 : Vec F S128x128 .f32) : Vec F S4000x128 .bf16 :=
  View.canon [⟨rN0, k0_pay2 (View.ld x0 rN0) (View.ld x1 rW0)⟩]

/-- One whole-buffer store covers the buffer. -/
theorem cover0_2 (p0 : Vec F S4000x128 .f32) (y : S4000x128.Idx) :
    ∃ pc ∈ ([⟨rN0, p0⟩] : List (View.Piece (Elt F) S4000x128 .f32)), y ∈ pc.1.set :=
  View.cover_of_tiled [⟨rN0, p0⟩] S4000x128.size (by rfl) y
theorem cover0_3 (p0 : Vec F S4000x128 .bf16) (y : S4000x128.Idx) :
    ∃ pc ∈ ([⟨rN0, p0⟩] : List (View.Piece (Elt F) S4000x128 .bf16)), y ∈ pc.1.set :=
  View.cover_of_tiled [⟨rN0, p0⟩] S4000x128.size (by rfl) y

/-! ## The body's triple -/

set_option maxHeartbeats 1000000 in
/-- The body on whole buffers — the inputs' at contents `x0`, `x1`, the outputs' at anything — runs to the end leaving the
    inputs as they were and each output at its store's value. -/
theorem sound_kernel0 (c : Dev nD) (E : Set ℕ) (i : grid0.Coords) (arg1 : Memref sig .tc .vmem S4000x128 .f32) (harg1 : arg1.IsWhole)
    (arg2 : Memref sig .tc .vmem S128x128 .f32) (harg2 : arg2.IsWhole) (arg3 : Memref sig .tc .vmem S4000x128 .f32) (harg3 : arg3.IsWhole)
    (arg4 : Memref sig .tc .vmem S4000x128 .bf16) (harg4 : arg4.IsWhole)
    (x0 : Vec F S4000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The proof data -/

/-- On core `c`: the arrays as the call finds them; after the body at point `t` each input's buffer at its block and each
    output's at its store's value of the two input blocks; the invariant is the untouched rest; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the embedding call, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The first update call (the second of the four kernel launches), of the program as printed (the word-level one: the same text in that program's own names), at any float instance and at any contents `V` of the
  buffers on entry. The grid has 25 points; point `t` takes rows [4000 t, 4000 t + 4000) of the embedding (window 0), of
  the incoming messages (window 1) and of the outgoing messages (window 2), and the whole second and third weight
  matrices (windows 3 and 4, each brought in once), and writes the same rows of the new state
  `max(xe + in · w2ᵀ + out · w3ᵀ, 0)` (window 5). The output block is stored whole by one store, so what the body leaves
  in its buffer is that store's value, a function of the five input blocks alone; the inputs' buffers are left as found.
-/
import proofs.«149511_j13958643712644_2_alg».proof.Proof.KernelLaunchP
import proofs.«149511_j13958643712644_2_alg».proof.Proof.Gen.Kernel.Skeleton
import proofs.«149511_j13958643712644_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not: unfetched, its block index has not
    moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, fetched there or not: unfetched, its block index has not
    moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, fetched there or not: unfetched, its block index has not
    moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds its block at every point, fetched there or not: unfetched, its block index has not
    moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's buffer holds its block at every point, fetched there or not: unfetched, its block index has not
    moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rN1 : Rect S4000x128 := Rect.unit (s := S4000x128) ![0, 0] S4000x128.size inb_S4000x128_S4000x128_0_0
abbrev rW1 : Rect S128x128 := Rect.unit (s := S128x128) ![0, 0] S128x128.size inb_S128x128_S128x128_0_0

/-! ## What the body leaves in the output's buffer -/

/-- The new state's block: the one store into window 5's buffer, a function of the five loaded blocks. -/
def out1_5 (x0 x1 x2 : Vec F S4000x128 .f32) (x3 x4 : Vec F S128x128 .f32) : Vec F S4000x128 .bf16 :=
  View.canon [⟨rN1, k1_pay1 (View.ld x0 rN1) (View.ld x1 rN1) (View.ld x2 rN1) (View.ld x3 rW1) (View.ld x4 rW1)⟩]

/-- One whole-buffer store covers the buffer. -/
theorem cover1_5 (p0 : Vec F S4000x128 .bf16) (y : S4000x128.Idx) :
    ∃ pc ∈ ([⟨rN1, p0⟩] : List (View.Piece (Elt F) S4000x128 .bf16)), y ∈ pc.1.set :=
  View.cover_of_tiled [⟨rN1, p0⟩] S4000x128.size (by rfl) y

/-! ## The body's triple -/

set_option maxHeartbeats 1000000 in
/-- The body on whole buffers — the inputs' at contents `x0 … x4`, the output's at anything — runs to the end leaving the
    inputs as they were and the output at its store's value. -/
theorem sound_kernel1 (c : Dev nD) (E : Set ℕ) (i : grid1.Coords) (arg1 : Memref sig .tc .vmem S4000x128 .f32) (harg1 : arg1.IsWhole)
    (arg2 : Memref sig .tc .vmem S4000x128 .f32) (harg2 : arg2.IsWhole) (arg3 : Memref sig .tc .vmem S4000x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S4000x128 .bf16) (harg6 : arg6.IsWhole)
    (x0 x1 x2 : Vec F S4000x128 .f32) (x3 x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__update_kernel i arg1 harg1 arg2 harg2 arg3 harg3 arg4 harg4 arg5 harg5 arg6 harg6) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data -/

/-- On core `c`: the arrays as the call finds them; after the body at point `t` each input's buffer at its block and the
    output's at its store's value of the five input blocks; the invariant is the untouched rest; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of this update call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  The second update call (the third of the four kernel launches), of the program as printed (the word-level one: the same text in that program's own names), at any float instance and at any contents `V` of the
  buffers on entry. The grid has 25 points; point `t` takes rows [4000 t, 4000 t + 4000) of the embedding (window 0), of
  the incoming messages (window 1) and of the outgoing messages (window 2), and the whole second and third weight
  matrices (windows 3 and 4, each brought in once), and writes the same rows of the new state
  `max(xe + in · w2ᵀ + out · w3ᵀ, 0)` (window 5). The output block is stored whole by one store, so what the body leaves
  in its buffer is that store's value, a function of the five input blocks alone; the inputs' buffers are left as found.
-/
import proofs.«149511_j13958643712644_2_alg».proof.Proof.KernelLaunchP
import proofs.«149511_j13958643712644_2_alg».proof.Proof.Gen.Kernel.Skeleton
import proofs.«149511_j13958643712644_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, fetched there or not: unfetched, its block index has not
    moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's buffer holds its block at every point, fetched there or not: unfetched, its block index has not
    moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's buffer holds its block at every point, fetched there or not: unfetched, its block index has not
    moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's buffer holds its block at every point, fetched there or not: unfetched, its block index has not
    moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's buffer holds its block at every point, fetched there or not: unfetched, its block index has not
    moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev rN2 : Rect S4000x128 := Rect.unit (s := S4000x128) ![0, 0] S4000x128.size inb_S4000x128_S4000x128_0_0
abbrev rW2 : Rect S128x128 := Rect.unit (s := S128x128) ![0, 0] S128x128.size inb_S128x128_S128x128_0_0

/-! ## What the body leaves in the output's buffer -/

/-- The new state's block: the one store into window 5's buffer, a function of the five loaded blocks. -/
def out2_5 (x0 x1 x2 : Vec F S4000x128 .f32) (x3 x4 : Vec F S128x128 .f32) : Vec F S4000x128 .f32 :=
  View.canon [⟨rN2, k2_pay1 (View.ld x0 rN2) (View.ld x1 rN2) (View.ld x2 rN2) (View.ld x3 rW2) (View.ld x4 rW2)⟩]

/-- One whole-buffer store covers the buffer. -/
theorem cover2_5 (p0 : Vec F S4000x128 .f32) (y : S4000x128.Idx) :
    ∃ pc ∈ ([⟨rN2, p0⟩] : List (View.Piece (Elt F) S4000x128 .f32)), y ∈ pc.1.set :=
  View.cover_of_tiled [⟨rN2, p0⟩] S4000x128.size (by rfl) y

/-! ## The body's triple -/

set_option maxHeartbeats 1000000 in
/-- The body on whole buffers — the inputs' at contents `x0 … x4`, the output's at anything — runs to the end leaving the
    inputs as they were and the output at its store's value. -/
theorem sound_kernel2 (c : Dev nD) (E : Set ℕ) (i : grid2.Coords) (arg1 : Memref sig .tc .vmem S4000x128 .f32) (harg1 : arg1.IsWhole)
    (arg2 : Memref sig .tc .vmem S4000x128 .f32) (harg2 : arg2.IsWhole) (arg3 : Memref sig .tc .vmem S4000x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S4000x128 .f32) (harg6 : arg6.IsWhole)
    (x0 x1 x2 : Vec F S4000x128 .f32) (x3 x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__update_kernel i arg1 harg1 arg2 harg2 arg3 harg3 arg4 harg4 arg5 harg5 arg6 harg6) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data -/

/-- On core `c`: the arrays as the call finds them; after the body at point `t` each input's buffer at its block and the
    output's at its store's value of the five input blocks; the invariant is the untouched rest; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of this update call, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3Body.lean ====
/-
  The reduction call (the last of the four kernel launches): its body, on any whole buffers and at any float instance.
  The grid has 25 points. The body keeps a running row of 128 sums in a buffer of its own that lives across the points:
  at the first point it sets the row to zero; at every point it adds to the row the column sums of the 4000 x 128 block
  it is given; at the last point it copies the row into the output's buffer, which it does not touch at any other
  point. So there are three cases — first point, a middle point, last point — told apart by two conditions on the
  grid coordinate, each decided over the grid. For each case: what the three buffers hold after the body, given what
  they held before.
-/
import proofs.«149511_j13958643712644_2_alg».proof.Proof.KernelLaunchP
import proofs.«149511_j13958643712644_2_alg».proof.Proof.Gen.Kernel.Skeleton
import proofs.«149511_j13958643712644_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, and where they hold -/

/-- The condition under which the body zeroes the running row: the grid coordinate is 0. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition under which the body copies the running row out: the grid coordinate is 24. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle -/

/-- The input window is live at every point. -/
theorem liveAt3_0 : ∀ t : Fin cfg3.N, cfg3.idle 0 (grid3.coords t) = false := by decide +kernel
/-- Away from the last point the output window is idle: the body stores nothing into it, -/
theorem idleAt3_1 : ∀ t : Fin cfg3.N, ¬cond3_1 (grid3.coords t) → cfg3.idle 1 (grid3.coords t) = true := by decide +kernel
/-- and its block is not written back there. -/
theorem noFlush3_1 : ∀ t : Fin cfg3.N, ¬cond3_1 (grid3.coords t) → (cfg3.win 1).flush t = false := by decide +kernel
/-- At the last point the output window is live. -/
theorem liveAt3_1 : ∀ t : Fin cfg3.N, cond3_1 (grid3.coords t) → cfg3.idle 1 (grid3.coords t) = false := by decide +kernel

/-! ## The body's accesses: every load and store is of a whole buffer -/

abbrev rS3 : Rect S1x128 := Rect.unit (s := S1x128) ![0, 0] S1x128.size inb_S1x128_S1x128_0_0
abbrev rN3 : Rect S4000x128 := Rect.unit (s := S4000x128) ![0, 0] S4000x128.size inb_S4000x128_S4000x128_0_0

/-- The offsets of every access are zero. -/
theorem hz3 : (![0, 0] : Fin 2 → Nat) = fun _ => 0 := funext fun a => by fin_cases a <;> rfl

/-! ## The body's triple, case by case -/

set_option maxHeartbeats 1000000 in
/-- FIRST POINT. The input's buffer holds the block `x0`, the output's buffer `xo`, the running row anything. The body
    zeroes the row, reads it back, adds the block's column sums and stores the result: the row ends at
    `k3_pay2 k3_pay1 x0`; the other two buffers are as they were. -/
theorem sound_kernel3_first (c : Dev nD) (E : Set ℕ) (i : grid3.Coords)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (hc0 : cond3_0 i) (hc1 : ¬cond3_1 i)
    (x0 : Vec F S4000x128 .f32) (xo : Vec F S1x128 .f32) (K : PUnit → sProp 𝕄) :
    iprop(owns (c : Thread nD τ) arg1 fullShare x0 ∗ owns (c : Thread nD τ) arg2 fullShare xo
        ∗ (∃ d, owns (c : Thread nD τ) arg3 fullShare d)
        ∗ (iprop(owns (c : Thread nD τ) arg1 fullShare x0 ∗ owns (c : Thread nD τ) arg2 fullShare xo
            ∗ owns (c : Thread nD τ) arg3 fullShare (k3_pay2 (k3_pay1 (F := F)) x0)) -∗ K ⟨⟩))
      ⊢ wp frame (wpE (defs₀ (F := F)) Variants.none c none) E (cc3__reduce_kernel i arg1 harg1 arg2 harg2 arg3 harg3) K := by
  simp only [cc3__reduce_kernel_eq_skeleton]; unfold cc3__reduce_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (fun y => ⟨_, List.mem_cons.mpr (Or.inl rfl), View.mem_set_unit_zero hz3 inb_S1x128_S1x128_0_0 y⟩)]
  rw [View.canon_cons_unit_zero (S := S1x128) hz3, View.readCov_unit_zero (S := S1x128) _ hz3]
  simp only [View.readAt_eq_ld, View.ld_unit_zero (S := S4000x128) hz3]

set_option maxHeartbeats 1000000 in
/-- A MIDDLE POINT. The running row holds `xs`. The body adds the block's column sums to it: the row ends at
    `k3_pay2 xs x0`; the other two buffers are as they were. -/
theorem sound_kernel3_mid (c : Dev nD) (E : Set ℕ) (i : grid3.Coords)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (hc0 : ¬cond3_0 i) (hc1 : ¬cond3_1 i)
    (x0 : Vec F S4000x128 .f32) (xo : Vec F S1x128 .f32) (xs : Vec F S1x128 .f32) (K : PUnit → sProp 𝕄) :
    iprop(owns (c : Thread nD τ) arg1 fullShare x0 ∗ owns (c : Thread nD τ) arg2 fullShare xo
        ∗ owns (c : Thread nD τ) arg3 fullShare xs
        ∗ (iprop(owns (c : Thread nD τ) arg1 fullShare x0 ∗ owns (c : Thread nD τ) arg2 fullShare xo
            ∗ owns (c : Thread nD τ) arg3 fullShare (k3_pay2 xs x0)) -∗ K ⟨⟩))
      ⊢ wp frame (wpE (defs₀ (F := F)) Variants.none c none) E (cc3__reduce_kernel i arg1 harg1 arg2 harg2 arg3 harg3) K := by
  simp only [cc3__reduce_kernel_eq_skeleton]; unfold cc3__reduce_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (fun y => ⟨_, List.mem_cons.mpr (Or.inl rfl), View.mem_set_unit_zero hz3 inb_S1x128_S1x128_0_0 y⟩)]
  rw [View.canon_unit_zero (S := S1x128) hz3]
  simp only [View.readAt_eq_ld, View.ld_unit_zero (S := S1x128) hz3, View.ld_unit_zero (S := S4000x128) hz3]

set_option maxHeartbeats 1000000 in
/-- LAST POINT. The running row holds `xs`, the output's buffer anything. The body adds the block's column sums to the
    row and copies the row into the output's buffer: both end at `k3_pay2 xs x0`; the input's buffer is as it was. -/
theorem sound_kernel3_last (c : Dev nD) (E : Set ℕ) (i : grid3.Coords)
    (arg1 : Memref sig .tc .vmem S4000x128 .f32) (harg1 : arg1.IsWhole)
    (arg2 : Memref sig .tc .vmem S1x128 .f32) (harg2 : arg2.IsWhole)
    (arg3 : Memref sig .tc .vmem S1x128 .f32) (harg3 : arg3.IsWhole)
    (hc0 : ¬cond3_0 i) (hc1 : cond3_1 i)
    (x0 : Vec F S4000x128 .f32) (xs : Vec F S1x128 .f32) (K : PUnit → sProp 𝕄) :
    iprop(owns (c : Thread nD τ) arg1 fullShare x0 ∗ (∃ d, owns (c : Thread nD τ) arg2 fullShare d)
        ∗ owns (c : Thread nD τ) arg3 fullShare xs
        ∗ (iprop(owns (c : Thread nD τ) arg1 fullShare x0 ∗ owns (c : Thread nD τ) arg2 fullShare (k3_pay2 xs x0)
            ∗ owns (c : Thread nD τ) arg3 fullShare (k3_pay2 xs x0)) -∗ K ⟨⟩))
      ⊢ wp frame (wpE (defs₀ (F := F)) Variants.none c none) E (cc3__reduce_kernel i arg1 harg1 arg2 harg2 arg3 harg3) K := by
  simp only [cc3__reduce_kernel_eq_skeleton]; unfold cc3__reduce_kernel_skel
  unfold owns
  iintro ⟨⟨%f0, %hf0, H0⟩, ⟨%d1, %f1, -, H1⟩, ⟨%fs, %hfs, HS⟩, Hk⟩
  subst hf0; subst hfs
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    rw [View.read_writes_eq_canon _ _ _ (fun y => ⟨_, List.mem_cons.mpr (Or.inl rfl), View.mem_set_unit_zero hz3 inb_S1x128_S1x128_0_0 y⟩)]
    rw [View.canon_unit_zero (S := S1x128) hz3, View.readCov_unit_zero (S := S1x128) _ hz3]
    simp only [View.readAt_eq_ld, View.ld_unit_zero (S := S1x128) hz3, View.ld_unit_zero (S := S4000x128) hz3]
  iexists _; isplitr
  swap; · iexact HS
  ipureintro
  sl_unfold_run_names
  rw [View.read_writes_eq_canon _ _ _ (fun y => ⟨_, List.mem_cons.mpr (Or.inl rfl), View.mem_set_unit_zero hz3 inb_S1x128_S1x128_0_0 y⟩)]
  rw [View.canon_unit_zero (S := S1x128) hz3]
  simp only [View.readAt_eq_ld, View.ld_unit_zero (S := S1x128) hz3, View.ld_unit_zero (S := S4000x128) hz3]

end Cert.Kernel.Hand

end
-- ==== Proof.KRegion3.lean ====
/-
  The reduction call (the last of the four kernel launches), at any float instance and at any contents `V` of the
  buffers on entry: the per-point proof data and the body's obligation at every point. The running row of sums lives in
  a buffer of the call's own across the 25 points, so the invariant between points says what that buffer holds:
  nothing before the first point; after point `n` the row `acc3 (n + 1)`, where `acc3 0` is the zero row and
  `acc3 (n + 1)` is `acc3 n` plus the column sums of block `n` of the input. The output's buffer is stored into at the
  last point only, with the row `acc3 25`, and written back there; at the other points it is handed back as found.
-/
import proofs.«149511_j13958643712644_2_alg».proof.Proof.KernelLaunchP
import proofs.«149511_j13958643712644_2_alg».proof.Proof.Gen.Kernel.Skeleton
import proofs.«149511_j13958643712644_2_alg».proof.Proof.Gen.Kernel.Points
import proofs.«149511_j13958643712644_2_alg».proof.Proof.KRegion3Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's buffer holds its block at every point: it is fetched at every point and the body leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The running row -/

/-- The running row after the first `n` points: the zero row, then one block's column sums added per point, in point order. -/
def acc3 (c : Dev nD) : ℕ → Vec F S1x128 .f32
  | 0 => k3_pay1
  | n + 1 => if h : n < cfg3.N then k3_pay2 (acc3 c n) (iblk3 V c 0 ⟨n, h⟩) else acc3 c n

theorem acc3_zero (c : Dev nD) : acc3 V c 0 = k3_pay1 := rfl

/-- One more point: the block's column sums added to the row. -/
theorem acc3_succ (c : Dev nD) (t : Fin cfg3.N) : acc3 V c (t.val + 1) = k3_pay2 (acc3 V c t.val) (iblk3 V c 0 t) := by
  rw [acc3]; exact dif_pos t.isLt

/-! ## The invariant between points -/

/-- The call's own buffer for the running row, as the body is handed it. -/
abbrev scM3 : Memref sig .tc .vmem S1x128 .f32 := Memref.whole cc3_scratch0

/-- Every other buffer that lives only during kernel calls and is no staging buffer of this call, at some contents each. -/
abbrev rest3 (c : Dev nD) : sProp 𝕄 :=
  Pipeline.scopedRestBut (Ix := Unit) (Name := ℕ) (U := UR sig nD τ) (Lvl := ℕ) (Val := Elt F) spec3 c [cc3_scratch0]

/-- Before point `n`: before the first point nothing is known of the running row's buffer; afterwards it holds `acc3 n`. -/
def Phi3 (c : Dev nD) : ℕ → sProp 𝕄
  | 0 => Pipeline.ΦA spec3 c
  | n + 1 => iprop(iprop(owns (c : Thread nD τ) scM3 fullShare (acc3 V c (n + 1)) ∗ rest3 c) ∗ (∃ r, prngReg c r))

theorem Phi3_zero (c : Dev nD) (n : ℕ) (hz : n = 0) : Phi3 V c n = Pipeline.ΦA spec3 c := by
  subst hz; rfl

theorem Phi3_succ (c : Dev nD) (n : ℕ) :
    Phi3 V c (n + 1) = iprop(iprop(owns (c : Thread nD τ) scM3 fullShare (acc3 V c (n + 1)) ∗ rest3 c) ∗ (∃ r, prngReg c r)) := rfl

theorem Phi3_pos (c : Dev nD) (n : ℕ) (hz : n ≠ 0) :
    Phi3 V c n = iprop(iprop(owns (c : Thread nD τ) scM3 fullShare (acc3 V c n) ∗ rest3 c) ∗ (∃ r, prngReg c r)) := by
  cases n with
  | zero => exact absurd rfl hz
  | succ n => rfl

/-- The invariant that knows nothing of the running row's buffer, with that buffer split off. -/
theorem PhiA3_eq (c : Dev nD) :
    (Pipeline.ΦA spec3 c : sProp 𝕄)
      = iprop(iprop((∃ d, owns (c : Thread nD τ) scM3 fullShare d) ∗ rest3 c) ∗ (∃ r, prngReg c r)) := by
  unfold Pipeline.ΦA; rw [scopedRest3_split]; simp only [scM3, owns_whole]; try rfl

/-! ## The proof data -/

/-- The proof data of the call on core `c`: the arrays as the call finds them; after the body at point `t` the input's
    buffer at its block and the output's at `acc3 (t + 1)` (consulted at the last point only: elsewhere the window is
    idle); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => acc3 V c (t.val + 1)
  Φ t := Phi3 V c t.val
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) : (dat3 V c).Φ t.castSucc = Phi3 V c t.val := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = acc3 V c (t.val + 1) := by dsimp only [dat3]

theorem before3_0 (c : Dev nD) (t : Fin cfg3.N) (d) : (dat3 V c).before 0 t d = iblk3 V c 0 t :=
  before3_0_of V (dat3 V c) (A_eq3 V c 0) (after3_0 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 2000000 in
/-- The body at any point, by the three cases. The input's buffer holds its block; the invariant hands the body the
    running row's buffer (at anything at the first point, at `acc3 t` later) and takes it back at `acc3 (t + 1)`; the
    output's buffer is handed back as found except at the last point, where it ends at `acc3 25`. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = Phi3 V c (t.val + 1) from rfl, Phi3_succ, acc3_succ]
  rw [show (dat3 V c).leavesExact 0 t = owns (c : Thread nD τ) (st3_0 t) fullShare ((dat3 V c).after 0 t) from by
    unfold Dat.leavesExact; rw [liveAt3_0 t], after3_0]
  have hN : t.val < 25 := lt_of_lt_of_eq t.isLt (show cfg3.N = 25 from N_3)
  by_cases h0 : t.val = 0
  · have h1 : ¬t.val = 24 := by omega
    have hc0 : cond3_0 (grid3.coords t) := (hcond3_0 t).mpr h0
    have hc1 : ¬cond3_1 (grid3.coords t) := fun h => h1 ((hcond3_1 t).mp h)
    rw [Dat.leavesExact_idle (dat3 V c) 1 t (idleAt3_1 t hc1) (noFlush3_1 t hc1)]
    rw [Phi3_castSucc V c t, Phi3_zero V c _ h0, PhiA3_eq, h0, acc3_zero]
    iintro ⟨⟨⟨HS, HR⟩, Hg⟩, Ho, ⟨%d0, H0⟩, ⟨%d1, H1⟩⟩
    iapply (sound_kernel3_first c Set.univ (grid3.coords t) _ _ _ _ _ _ hc0 hc1 (iblk3 V c 0 t) _ _)
    isplitl [H0]; · iexact H0
    isplitl [H1]; · iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexists _; iexact H1
  · have hc0 : ¬cond3_0 (grid3.coords t) := fun h => h0 ((hcond3_0 t).mp h)
    rw [Phi3_castSucc V c t, Phi3_pos V c _ h0]
    by_cases h1 : t.val = 24
    · have hc1 : cond3_1 (grid3.coords t) := (hcond3_1 t).mpr h1
      rw [show (dat3 V c).leavesExact 1 t = owns (c : Thread nD τ) (st3_1 t) fullShare ((dat3 V c).after 1 t) from by
        unfold Dat.leavesExact; rw [liveAt3_1 t hc1], after3_1, acc3_succ]
      iintro ⟨⟨⟨HS, HR⟩, Hg⟩, Ho, ⟨%d0, H0⟩, ⟨%d1, H1⟩⟩
      iapply (sound_kernel3_last c Set.univ (grid3.coords t) _ _ _ _ _ _ hc0 hc1 (iblk3 V c 0 t) _ _)
      isplitl [H0]; · iexact H0
      isplitl [H1]; · iexists _; iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexact H1
    · have hc1 : ¬cond3_1 (grid3.coords t) := fun h => h1 ((hcond3_1 t).mp h)
      rw [Dat.leavesExact_idle (dat3 V c) 1 t (idleAt3_1 t hc1) (noFlush3_1 t hc1)]
      iintro ⟨⟨⟨HS, HR⟩, Hg⟩, Ho, ⟨%d0, H0⟩, ⟨%d1, H1⟩⟩
      iapply (sound_kernel3_mid c Set.univ (grid3.coords t) _ _ _ _ _ _ hc0 hc1 (iblk3 V c 0 t) _ _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexists _; iexact H1

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the call's two ends -/

/-- Before the first point the invariant is the one that knows nothing of the running row's buffer. -/
theorem Phi3_first (c : Dev nD) : (dat3 V c).Φ 0 = Pipeline.ΦA spec3 c := rfl

/-- What the call is entered with gives the invariant before the first point. -/
theorem hin3 (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [Phi3_first]; unfold Pipeline.ΦA
  iintro ⟨Hp, Hr⟩
  isplitl [Hr]; · iexact Hr
  iexact Hp

/-- After the last point the invariant gives back what the call was entered with: what the running row's buffer holds is forgotten. -/
theorem hout3 (c : Dev nD) :
    (dat3 V c).Φ (Fin.last _)
      ⊢ iprop((∃ r, prngReg c r) ∗ Pipeline.scopedRest (Ix := Unit) (Name := ℕ) (U := UR sig nD τ) (Lvl := ℕ) (Val := Elt F) spec3 c) := by
  rw [show (dat3 V c).Φ (Fin.last _) = Phi3 V c (Fin.last cfg3.N).val from rfl,
    Phi3_pos V c _ (by rw [Fin.val_last]; have : cfg3.N = 25 := N_3; omega), scopedRest3_split]
  simp only [scM3, owns_whole]
  iintro ⟨⟨HS, HR⟩, Hg⟩
  isplitl [Hg]; · iexact Hg
  isplitl [HS]
  · iexists _; iexact HS
  iexact HR

/-! ## The output array after the call -/

/-- The one point that writes the output back: the last. -/
abbrev tL3 : Fin cfg3.N := ⟨24, by decide⟩

/-- What the write-back at the last point writes is the running row after all 25 points: the output's one block, read
    through zero offsets, is the whole array. -/
theorem flushed3_eq (c : Dev nD) (t : Fin cfg3.N) (hf : (cfg3.win 1).flush t = true) :
    (dat3 V c).flushed 1 t = ((cfg3.win 1).blk t).view.read (Elt F) (acc3 V c 25 : Buf (Elt F) ((c : Thread nD τ).loc main_v51)) := by
  have hN : t.val < 25 := lt_of_lt_of_eq t.isLt (show cfg3.N = 25 from N_3)
  have h24 : t.val = 24 := by have := (flush3_1 t).mp hf; omega
  obtain rfl : t = tL3 := Fin.ext h24
  show (cfg3.win 1).cut (grid3.coords tL3) ((dat3 V c).after 1 tL3) = _
  rw [after3_1]
  have hz' : (fun a => win3_1.index tL3 a * main_v51.ty.shape.size a) = fun _ => 0 := funext fun a => by fin_cases a <;> decide
  exact (Memref.read_access_unit_zero (Elt F) main_v51 hz' (fun a => by rw [congrFun hz' a]; simp) (acc3 V c 25)).symm

/-- So the output array ends holding the running row after all 25 points:
    `acc3 25 = k3_pay2 (… (k3_pay2 (k3_pay2 k3_pay1 block₀) block₁) …) block₂₄`. -/
theorem arrAt3_1 (c : Dev nD) : (dat3 V c).arrAt 1 cfg3.N = (acc3 V c 25 : Buf (Elt F) ((c : Thread nD τ).loc main_v51)) :=
  (dat3 V c).arrAt_eq_of_cover 1 (acc3 V c 25) (flushed3_eq V c) fun i =>
    ⟨tL3, (flush3_1 tL3).mpr rfl, by
      show i ∈ ((View.whole main_v51).slice (win3_1.rect tL3)).set
      rw [View.set_slice_whole, Rect.mem_set_unit]
      intro a
      have h0 : (i 0 : Nat) < 1 := (i 0).isLt
      have h1 : (i 1 : Nat) < 128 := (i 1).isLt
      match a with
      | ⟨0, _⟩ =>
        show win3_1.index tL3 0 * win3_1.size 0 ≤ (i 0 : Nat) ∧ (i 0 : Nat) < win3_1.index tL3 0 * win3_1.size 0 + win3_1.xsize (grid3.coords tL3) 0
        rw [show win3_1.index tL3 0 * win3_1.size 0 = 0 from by decide +kernel, show win3_1.xsize (grid3.coords tL3) 0 = 1 from by decide +kernel]; omega
      | ⟨1, _⟩ =>
        show win3_1.index tL3 1 * win3_1.size 1 ≤ (i 1 : Nat) ∧ (i 1 : Nat) < win3_1.index tL3 1 * win3_1.size 1 + win3_1.xsize (grid3.coords tL3) 1
        rw [show win3_1.index tL3 1 * win3_1.size 1 = 0 from by decide +kernel, show win3_1.xsize (grid3.coords tL3) 1 = 128 from by decide +kernel]; omega⟩

/-- The input array is left as the call found it. -/
theorem arrAt3_0 (c : Dev nD) : (dat3 V c).arrAt 0 cfg3.N = V c (Pipeline.arrRef spec3 0) :=
  ((dat3 V c).arrAt_in 0 rfl _).trans (A_eq3 V c 0)

/-- The running row, one step unfolded at a numeral (for reading `acc3 25` down to `acc3 0`). -/
theorem acc3_step (c : Dev nD) (n : ℕ) (h : n < cfg3.N) : acc3 V c (n + 1) = k3_pay2 (acc3 V c n) (iblk3 V c 0 ⟨n, h⟩) :=
  acc3_succ V c ⟨n, h⟩

end Cert.Kernel.Hand

end
-- ==== Proof.KRun.lean ====
/-
  The whole run of the program as printed (the word-level one; the same text in that program's own names): @main is eight segments — host lines, the embedding call, host lines (the first pair of edge
  aggregations), the first update call, host lines (the second pair), the second update call, the column-sum call, one last
  host line. The buffers' contents at each boundary are a fold from the launch memory: a host stretch applies its
  operations; a kernel call replaces its arrays by what its write-backs leave and touches nothing else. Each call is
  entered from, and left at, "every unscoped buffer at the boundary's contents, the generator register somewhere, nothing
  owed". From the chained segments: every weakly fair execution terminates without a fault with every unscoped buffer at
  the fold's last contents — in particular the five arguments as launched, and the result buffer at a named value.
-/
import proofs.«149511_j13958643712644_2_alg».proof.Proof.KernelLaunchP
import proofs.«149511_j13958643712644_2_alg».proof.Proof.Gen.Kernel.Skeleton
import proofs.«149511_j13958643712644_2_alg».proof.Proof.Gen.Kernel.Points
import proofs.«149511_j13958643712644_2_alg».proof.Proof.KRegion0
import proofs.«149511_j13958643712644_2_alg».proof.Proof.KRegion1
import proofs.«149511_j13958643712644_2_alg».proof.Proof.KRegion2
import proofs.«149511_j13958643712644_2_alg».proof.Proof.KRegion3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- No operation of host stretch 0 allocates a buffer. -/
theorem hostOps0_fresh : (hostOps0 : List (HloOp τ sig (Elt F))).Forall fun op => op.fresh = ∅ := by
  simp only [List.Forall]; repeat' constructor
/-- The buffers host stretch 0 writes. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 1 allocates a buffer. -/
theorem hostOps1_fresh : (hostOps1 : List (HloOp τ sig (Elt F))).Forall fun op => op.fresh = ∅ := by
  simp only [List.Forall]; repeat' constructor
/-- The buffers host stretch 1 writes. -/
abbrev hostOps1_W : List (Ref sig .tc) := [main_c, main_v5, main_v6, main_c_0, main_v7, main_v8, main_v9, main_v10, main_v11, main_v12, main_cst, main_v13, main_v14, main_v15, main_c_1, main_v16, main_v17, main_c_2, main_v18, main_v19, main_v20, main_v21, main_v22, main_v23, main_cst_3, main_v24, main_v25, main_v26]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 2 allocates a buffer. -/
theorem hostOps2_fresh : (hostOps2 : List (HloOp τ sig (Elt F))).Forall fun op => op.fresh = ∅ := by
  simp only [List.Forall]; repeat' constructor
/-- The buffers host stretch 2 writes. -/
abbrev hostOps2_W : List (Ref sig .tc) := [main_c_4, main_v28, main_v29, main_c_5, main_v30, main_v31, main_v32, main_v33, main_v34, main_v35, main_cst_6, main_v36, main_v37, main_v38, main_c_7, main_v39, main_v40, main_c_8, main_v41, main_v42, main_v43, main_v44, main_v45, main_v46, main_cst_9, main_v47, main_v48, main_v49]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 4 allocates a buffer. -/
theorem hostOps4_fresh : (hostOps4 : List (HloOp τ sig (Elt F))).Forall fun op => op.fresh = ∅ := by
  simp only [List.Forall]; repeat' constructor
/-- The buffers host stretch 4 writes. -/
abbrev hostOps4_W : List (Ref sig .tc) := [main_v52]
theorem hostOps4_writes : (hostOps4 : List (HloOp τ sig (Elt F))).Forall fun op => op.writes ⊆ (hostOps4_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-! ## The buffers' contents at each boundary of @main: a fold from the launch memory -/

/-- Core `c`'s buffers at launch. -/
abbrev W0 : Dev nD → Valuation τ sig (Elt F) := fun c b => (s₀ m ρ).mem ((c : Dev nD), b)
/-- After the first host stretch (the two index rows cut out of the edge array). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After kernel call 0: its arrays at what its write-backs leave, every other buffer as on entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the next host stretch (the two edge aggregations of the state just written). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After kernel call 1: its arrays at what its write-backs leave, every other buffer as on entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the next host stretch (the two edge aggregations of the state just written). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After kernel call 2: its arrays at what its write-backs leave, every other buffer as on entry. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After kernel call 3: its arrays at what its write-backs leave, every other buffer as on entry. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After the last host line (the [1,128] sums reshaped to [128]). -/
abbrev W8 : Dev nD → Valuation τ sig (Elt F) := fun c => StableHlo.after hostOps4 (W7 m ρ c)

/-! ## The arguments end as launched -/

/-- Argument 0 ends as launched: no host line writes it, and a kernel call either does not touch it or only reads it. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := StableHlo.after_of_writes_sub hostOps4 _ hostOps4_writes (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

/-- Argument 1 ends as launched: no host line writes it, and a kernel call either does not touch it or only reads it. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := StableHlo.after_of_writes_sub hostOps4 _ hostOps4_writes (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- Argument 2 ends as launched: no host line writes it, and a kernel call either does not touch it or only reads it. -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := StableHlo.after_of_writes_sub hostOps4 _ hostOps4_writes (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl

/-- Argument 3 ends as launched: no host line writes it, and a kernel call either does not touch it or only reads it. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := StableHlo.after_of_writes_sub hostOps4 _ hostOps4_writes (by decide)
    _ = W6 m ρ c (Proc.devRef .tc main_arg3) := W7_of_ne m ρ c main_arg3 (by decide)
    _ = W5 m ρ c (Proc.devRef .tc main_arg3) := (W6_arr m ρ c 3).trans (((dat2 (V5 m ρ) c).arrAt_in 3 rfl _).trans (A_eq2 (V5 m ρ) c 3))
    _ = W4 m ρ c (Proc.devRef .tc main_arg3) := StableHlo.after_of_writes_sub hostOps2 _ hostOps2_writes (by decide)
    _ = W3 m ρ c (Proc.devRef .tc main_arg3) := (W4_arr m ρ c 3).trans (((dat1 (V3 m ρ) c).arrAt_in 3 rfl _).trans (A_eq1 (V3 m ρ) c 3))
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- Argument 4 ends as launched: no host line writes it, and a kernel call either does not touch it or only reads it. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := StableHlo.after_of_writes_sub hostOps4 _ hostOps4_writes (by decide)
    _ = W6 m ρ c (Proc.devRef .tc main_arg4) := W7_of_ne m ρ c main_arg4 (by decide)
    _ = W5 m ρ c (Proc.devRef .tc main_arg4) := (W6_arr m ρ c 4).trans (((dat2 (V5 m ρ) c).arrAt_in 4 rfl _).trans (A_eq2 (V5 m ρ) c 4))
    _ = W4 m ρ c (Proc.devRef .tc main_arg4) := StableHlo.after_of_writes_sub hostOps2 _ hostOps2_writes (by decide)
    _ = W3 m ρ c (Proc.devRef .tc main_arg4) := (W4_arr m ρ c 4).trans (((dat1 (V3 m ρ) c).arrAt_in 4 rfl _).trans (A_eq1 (V3 m ρ) c 4))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The proof data family and the thread state -/

/-- No call has a prefetched table. -/
abbrev adm : (p : Fin 4) → (pcfgs (F := F) p).Adm := fun p => (cfgs p).toPCfg_adm
/-- Every call's proof data, each at the contents its call is entered with. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and its debts, none. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along; it ends with the
    buffers at the stretch's operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some state. -/
abbrev Tₙ (c : Dev nD) : sProp 𝕄 := iprop(StableHlo.held (c : Thread nD τ) (Pipeline.ucRefs τ sig) (W8 m ρ c) ∗ ∃ r, prngReg c r)

/-! ## The kernel calls as segments -/

-- a library lemma stated over the pinned configuration unifies with the printed one only when unification may unfold
-- plain definitions in a metavariable's type
set_option backward.isDefEq.respectTransparency.types false in
/-- Kernel call 0 as a segment: entered with every unscoped buffer at `W1`, left with them at `W2`. Its arrays
    are split out of the unscoped buffers on entry and put back at their final contents on exit; the generator register
    goes into the call's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel call 1 as a segment: entered with every unscoped buffer at `W3`, left with them at `W4`. Its arrays
    are split out of the unscoped buffers on entry and put back at their final contents on exit; the generator register
    goes into the call's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel call 2 as a segment: entered with every unscoped buffer at `W5`, left with them at `W6`. Its arrays
    are split out of the unscoped buffers on entry and put back at their final contents on exit; the generator register
    goes into the call's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel call 3 as a segment: entered with every unscoped buffer at `W6`, left with them at `W7`. Its arrays
    are split out of the unscoped buffers on entry and put back at their final contents on exit; the generator register
    goes into the call's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V6 m ρ) c).Φ 0 from rfl]
    iintro ⟨Hp, -, Hr⟩
    iapply (hin3 (V6 m ρ) c)
    isplitl [Hp]; · iexact Hp
    iexact Hr
  hout c := by
    rw [Pipeline.ownSems0_none, show (pdats m ρ 3 c).Φ (Fin.last _) = (dat3 (V6 m ρ) c).Φ (Fin.last _) from rfl]
    iintro H
    ihave H' := (hout3 (V6 m ρ) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)) ]
/-- @main is the run of the segments. -/
theorem main_run (c : Dev nD) : main (F := F) c = Pipeline.Seg.run (segs m ρ) := (main_chain c).trans (by chain_rfl)

set_option backward.isDefEq.respectTransparency.types false in
/-- THE RUN, at any float instance: from any memory with zero counters every weakly fair execution of @main terminates,
    nothing faulting, and in the final memory every unscoped buffer of every core holds the last contents of the fold `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W8 m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The frame, at any float instance: the run, read at the five argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c)⟩) (run_all m ρ)

/-- The run with the result named: the result buffer ends at the fold's last contents there. -/
theorem run_result : θ_run defs (onTc (τ := τ) (main (F := F))) ⟨m, fun _ => 0, ρ⟩ (fun r => ∀ c : Dev nD,
      r.2.mem ((c.tc : Thread nD τ).loc main_v52) = W8 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v52 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c)⟩) (run_all m ρ)

end Cert.Kernel.Hand

end
-- ==== Proof.RefAgg.lean ====
/-
  The two edge aggregations of the reference, as maps on node-feature matrices.

  The edge array `e` is the integer matrix [2, 1600000] the reference receives as its second argument: row 0 holds the
  source node of every edge, row 1 its destination. For a node-feature matrix `mu` [100000, 128] the reference forms
  the sum, over the edges into each node, of the source's row of `mu`, and the sum, over the edges out of each node, of the
  destination's row; each is a gather of rows followed by a scatter-add of those
  rows into the zero matrix:

    * the row read for edge `j` is `mu` at the index `from_ j` after the index normalisation (a negative index has
      100000 added: compare with 0, add, select), read as a signed number and clamped into the matrix by the gather —
      so every gathered entry IS an entry of `mu`, whatever the index;
    * it is added into row `to_ j` of the zero matrix; the scatter reads `to_ j` signed and NOT clamped, and an edge whose
      target row lies outside the matrix adds nothing.

  `agg` spells this composite with the reference's own operations, in the reference's order, on two index rows
  `from_`, `to_` : [1600000]; `aggIn e = agg (srcRow e) (dstRow e)` and `aggOut e = agg (dstRow e) (srcRow e)`, the rows
  cut out of `e` by the reference's slice and reshape. All that is proved about them here: the aggregation of the zero
  matrix is the zero matrix (a gather of zeros is zeros, and the zero matrix plus a sum of zeros is zero).
-/
import proofs.«149511_j13958643712644_2_alg».proof.Proof.Gen.ReferenceIdeal.Read

noncomputable section

open scoped BigOperators

namespace Cert.ReferenceIdeal.RefValue

open Cert.ReferenceIdeal Cert.ReferenceIdeal.Gen Idealize.ShloMosaic

/-- Row 0 of the edge array (the edges' sources), as a vector [1600000]: the reference's slice [0:1, :] and reshape. -/
def srcRow (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- Row 1 of the edge array (the edges' destinations), as a vector [1600000]: the slice [1:2, :] and reshape. -/
def dstRow (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The index normalisation of a vector of node indices: where the index is negative, the index plus 100000. -/
def wrapIdx (r : (⟨S1600000, .i32⟩ : BufTy).Contents (Elt Ideal)) : (⟨S1600000, .i32⟩ : BufTy).Contents (Elt Ideal) :=
  select (cmpi .slt r (broadcastInDim S1600000 ![] bcast_S_S1600000 (constantI S_ 32 0#32)))
    (addi r (broadcastInDim S1600000 ![] bcast_S_S1600000 (constantI S_ 32 100000#32))) r

/-- A vector of indices [1600000] as the one-column matrix [1600000, 1] the gather and the scatter take. -/
def asColumn (r : (⟨S1600000, .i32⟩ : BufTy).Contents (Elt Ideal)) : (⟨S1600000x1, .i32⟩ : BufTy).Contents (Elt Ideal) :=
  broadcastInDim S1600000x1 ![0] bcast_S1600000_S1600000x1_0 r

/-- The zero matrix [100000, 128] the scatter-add starts from: the broadcast of the constant 0.0. -/
def zeroMat : FVec Ideal S100000x128 .f32 :=
  broadcastInDim S100000x128 ![] bcast_S_S100000x128 (constant (F := Ideal) S_ .f32 0x00000000#32)

/-- The edge sum with sources `from_` and targets `to_`: the rows of `mu` at the normalised indices `from`, added into the rows `to` of the zero
    matrix. -/
def agg (from_ to_ : (⟨S1600000, .i32⟩ : BufTy).Contents (Elt Ideal)) (mu : FVec Ideal S100000x128 .f32) : FVec Ideal S100000x128 .f32 :=
  Host.scatterAdd (F := Ideal) (φ := .f32) scatter_S100000x128_S1600000x1_S1600000x128_1_0_0_1 zeroMat (asColumn to_)
    (Host.gather gather_S100000x128_S1600000x1_S1600000x128_1_0_n_n_0_1_1128 mu (asColumn (wrapIdx from_)))

/-- The aggregation over incoming edges: row `n` is the sum of the rows `mu[src j]` over the edges `j` with `dst j = n`. -/
def aggIn (e : (⟨S2x1600000, .i32⟩ : BufTy).Contents (Elt Ideal)) (mu : FVec Ideal S100000x128 .f32) : FVec Ideal S100000x128 .f32 :=
  agg (srcRow e) (dstRow e) mu

/-- The aggregation over outgoing edges: row `n` is the sum of the rows `mu[dst j]` over the edges `j` with `src j = n`. -/
def aggOut (e : (⟨S2x1600000, .i32⟩ : BufTy).Contents (Elt Ideal)) (mu : FVec Ideal S100000x128 .f32) : FVec Ideal S100000x128 .f32 :=
  agg (dstRow e) (srcRow e) mu

/-- `aggIn` with every operation in sight: the reference's composite, operation by operation. -/
theorem aggIn_eq (e : (⟨S2x1600000, .i32⟩ : BufTy).Contents (Elt Ideal)) (mu : FVec Ideal S100000x128 .f32) :
    aggIn e mu =
      Host.scatterAdd (F := Ideal) (φ := .f32) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0
          (shapeCast _ (extractStridedSlice S1x1600000 ![1, 0] e slices_S2x1600000_S1x1600000_1_0) shapeCasts_S1x1600000_S1600000))
        (Host.gather gather_S100000x128_S1600000x1_S1600000x128_1_0_n_n_0_1_1128 mu
          (broadcastInDim S1600000x1 ![0] bcast_S1600000_S1600000x1_0
            (select
              (cmpi .slt
                (shapeCast _ (extractStridedSlice S1x1600000 ![0, 0] e slices_S2x1600000_S1x1600000_0_0) shapeCasts_S1x1600000_S1600000)
                (broadcastInDim S1600000 ![] bcast_S_S1600000 (constantI S_ 32 0#32)))
              (addi
                (shapeCast _ (extractStridedSlice S1x1600000 ![0, 0] e slices_S2x1600000_S1x1600000_0_0) shapeCasts_S1x1600000_S1600000)
                (broadcastInDim S1600000 ![] bcast_S_S1600000 (constantI S_ 32 100000#32)))
              (shapeCast _ (extractStridedSlice S1x1600000 ![0, 0] e slices_S2x1600000_S1x1600000_0_0) shapeCasts_S1x1600000_S1600000)))) := by
  unfold aggIn agg srcRow dstRow wrapIdx asColumn zeroMat
  rfl

/-- `aggOut` with every operation in sight: the same composite with the two rows exchanged. -/
theorem aggOut_eq (e : (⟨S2x1600000, .i32⟩ : BufTy).Contents (Elt Ideal)) (mu : FVec Ideal S100000x128 .f32) :
    aggOut e mu =
      Host.scatterAdd (F := Ideal) (φ := .f32) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0
          (shapeCast _ (extractStridedSlice S1x1600000 ![0, 0] e slices_S2x1600000_S1x1600000_0_0) shapeCasts_S1x1600000_S1600000))
        (Host.gather gather_S100000x128_S1600000x1_S1600000x128_1_0_n_n_0_1_1128 mu
          (broadcastInDim S1600000x1 ![0] bcast_S1600000_S1600000x1_0
            (select
              (cmpi .slt
                (shapeCast _ (extractStridedSlice S1x1600000 ![1, 0] e slices_S2x1600000_S1x1600000_1_0) shapeCasts_S1x1600000_S1600000)
                (broadcastInDim S1600000 ![] bcast_S_S1600000 (constantI S_ 32 0#32)))
              (addi
                (shapeCast _ (extractStridedSlice S1x1600000 ![1, 0] e slices_S2x1600000_S1x1600000_1_0) shapeCasts_S1x1600000_S1600000)
                (broadcastInDim S1600000 ![] bcast_S_S1600000 (constantI S_ 32 100000#32)))
              (shapeCast _ (extractStridedSlice S1x1600000 ![1, 0] e slices_S2x1600000_S1x1600000_1_0) shapeCasts_S1x1600000_S1600000)))) := by
  unfold aggOut agg srcRow dstRow wrapIdx asColumn zeroMat
  rfl

/-- Every entry of the zero matrix is the extended real 0. -/
theorem zeroMat_apply (i : S100000x128.Idx) : zeroMat i = (0 : EReal) := by
  unfold zeroMat
  rw [broadcastInDim_apply _ bcast_S_S100000x128 (constant (F := Ideal) S_ .f32 0x00000000#32) i (fun a => a.elim0)
    (fun a => a.elim0)]
  show FloatOps.ofBits (F := Ideal) .f32 0x00000000#32 = 0
  rw [Ideal.ofBits_def, Ideal.ofBits_zero_f32]

/-- A gather out of a matrix that is 0 everywhere is 0 everywhere: every gathered entry is an entry of the operand
    (the gather clamps its start index into the operand; it has no fill value). -/
theorem gather_zero {s si t : Shape} {w : Nat} (d : GatherDims s si t) (idx : IVec si w) :
    Host.gather d (fun _ : s.Idx => (0 : EReal)) idx = fun _ => (0 : EReal) := rfl

/-- A scatter-add of updates that are all 0 leaves the operand as it was: on the extended reals the sum of any
    family of zeros is 0, and `x + 0 = x`. -/
theorem scatterAdd_zero {s si su : Shape} {w : Nat} (d : ScatterDims s si su) (x : FVec Ideal s .f32) (idx : IVec si w)
    (i : s.Idx) :
    Host.scatterAdd (F := Ideal) (φ := .f32) d x idx (fun _ => (0 : EReal)) i = x i := by
  show x i + ∑ j ∈ Finset.univ.filter (fun j => d.resultIdx? j idx = some i), (0 : EReal) = x i
  rw [Finset.sum_const_zero, add_zero]

/-- The aggregation of the zero matrix is the zero matrix: each gathered entry is an entry of the operand, hence 0, and
    the scatter-add puts a sum of zeros on top of the zero matrix. -/
theorem agg_zero_rows (from_ to_ : (⟨S1600000, .i32⟩ : BufTy).Contents (Elt Ideal)) :
    agg from_ to_ (fun _ => (0 : EReal)) = fun _ => (0 : EReal) := by
  funext i
  unfold agg
  rw [gather_zero]
  exact (scatterAdd_zero _ zeroMat _ i).trans (zeroMat_apply i)

/-- Both aggregations send the zero matrix to the zero matrix. -/
theorem agg_zero (e : (⟨S2x1600000, .i32⟩ : BufTy).Contents (Elt Ideal)) :
    aggIn e (fun _ => (0 : EReal)) = (fun _ => (0 : EReal)) ∧ aggOut e (fun _ => (0 : EReal)) = (fun _ => (0 : EReal)) :=
  ⟨agg_zero_rows _ _, agg_zero_rows _ _⟩

end Cert.ReferenceIdeal.RefValue

end
-- ==== Proof.RefStages.lean ====
/-
  The reference's arithmetic stages read at an index, over arbitrary operands.

  Three shapes of operation carry the reference's arithmetic, each met several times with different operands:

    * the product with a transposed weight matrix: the reference transposes `w` [128, 128] and contracts the second axis of
      `a` [100000, 128] with the first axis of the transpose, so entry (n, j) is the sum over k of a(n, k) · w(j, k);
    * the positive part, written as the maximum against the broadcast of the constant 0.0;
    * the sum over the node axis, written as a reduction that starts from the constant 0.0.

  The first two are stated for arbitrary operands, so that every round of the reference is an instance; the extended
  reals' `0 + x = x` removes the reduction's starting value.
-/
import proofs.«149511_j13958643712644_2_alg».proof.Proof.Gen.ReferenceIdeal.Read

noncomputable section

open scoped BigOperators

namespace Cert.ReferenceIdeal.RefValue

open Cert.ReferenceIdeal Cert.ReferenceIdeal.Gen Idealize.ShloMosaic Idealize.ShloMosaic.ValueIdx

/-- The product with the transposed weights, at an entry: the sum over k of a(n, k) · w(j, k). -/
theorem dotT_apply (a : FVec Ideal S100000x128 .f32) (w : FVec Ideal S128x128 .f32) (i : S100000x128.Idx) :
    Read.val_main_v5 (F := Ideal) a w i = ∑ k : Fin 128, a (ix2 (i 0) k) * w (ix2 (i 1) k) := by
  rw [Read.val_main_v5_apply]
  refine Finset.sum_congr rfl fun k _ => ?_
  rw [Read.val_main_v4_apply]
  have e1 : Read.lidx_main_v5 i k = ix2 (i 0) k :=
    funext fun d => Fin.ext (by match d with | ⟨0, _⟩ => rfl | ⟨1, _⟩ => rfl)
  have e2 : Read.idx_main_v4 (Read.ridx_main_v5 i k) = ix2 (i 1) k :=
    funext fun d => Fin.ext (by match d with | ⟨0, _⟩ => rfl | ⟨1, _⟩ => rfl)
  rw [e1, e2]
  rfl

/-- The broadcast zero the positive part is taken against is 0 at every entry. -/
theorem reluZero_apply (i : S100000x128.Idx) : Read.val_main_call0_v0 (F := Ideal) i = (0 : EReal) := by
  rw [Read.val_main_call0_v0_apply, Read.val_main_call0_cst_apply, Ideal.ofBits_def, Ideal.ofBits_zero_f32]

/-- The positive part at an entry. -/
theorem relu_apply (y : FVec Ideal S100000x128 .f32) (i : S100000x128.Idx) :
    maximumf y (Read.val_main_call0_v0 (F := Ideal)) i = max (y i) 0 := by
  show FloatOps.maximumf (y i) (Read.val_main_call0_v0 (F := Ideal) i) = _
  rw [reluZero_apply, Ideal.maximumf_def]

/-- The matrix the reference's state starts from is 0 at every entry. -/
theorem start_zero : Read.val_main_v6 (F := Ideal) = fun _ => (0 : EReal) := by
  funext i
  rw [Read.val_main_v6_apply, Read.val_main_cst_apply, Ideal.ofBits_def, Ideal.ofBits_zero_f32]

/-- The reference's result at an entry: the sum over the nodes of the last state's column. -/
theorem colSum_apply (x0 : FVec Ideal S100000x128 .f32) (x1 : (⟨S2x1600000, .i32⟩ : BufTy).Contents (Elt Ideal))
    (x2 x3 x4 : FVec Ideal S128x128 .f32) (j : S128.Idx) :
    Read.val_main_v88 (F := Ideal) x0 x1 x2 x3 x4 j
      = ∑ n : Fin 100000, Read.val_main_v87 (F := Ideal) x0 x1 x2 x3 x4 (ix2 n (j 0)) := by
  rw [Read.val_main_v88_apply, Read.val_main_cst_17_apply, Ideal.ofBits_def, Ideal.ofBits_zero_f32, zero_add]
  refine Finset.sum_congr rfl fun n _ => congrArg _ (funext fun d => Fin.ext (by match d with | ⟨0, _⟩ => rfl | ⟨1, _⟩ => rfl))

end Cert.ReferenceIdeal.RefValue

end
-- ==== Proof.RefRounds.lean ====
/-
  The reference's three rounds are the specification's state.

  With `xe = x · w1ᵀ`, each round of the reference computes `max(xe + msgIn · w2ᵀ + msgOut · w3ᵀ, 0)`, the sum grouped from
  the left, where `msgIn`, `msgOut` are the two edge aggregations of the previous state. The aggregation stages are not
  opened: each is, operation for operation, `aggIn e` or `aggOut e` applied to the previous state (the reference repeats the
  same gather and scatter-add, with the same constants, in every round). The first round starts from the zero matrix,
  whose aggregations are zero, so that round is the positive part of `xe`; the other two are the specification's update.
-/
import proofs.«149511_j13958643712644_2_alg».proof.Proof.Gen.ReferenceIdeal.Read
import proofs.«149511_j13958643712644_2_alg».proof.Proof.Spec
import proofs.«149511_j13958643712644_2_alg».proof.Proof.RefAgg
import proofs.«149511_j13958643712644_2_alg».proof.Proof.RefStages

noncomputable section

open scoped BigOperators

namespace Cert.ReferenceIdeal.RefValue

open Cert.ReferenceIdeal Cert.ReferenceIdeal.Gen Cert.ReferenceIdeal.Read Idealize.ShloMosaic Idealize.ShloMosaic.ValueIdx

/-- The product with the transposed weights is the specification's. -/
theorem mulT_eq (a : FVec Ideal S100000x128 .f32) (w : FVec Ideal S128x128 .f32) :
    val_main_v5 (F := Ideal) a w = GnnSpec.mulT a w := by
  funext i
  rw [dotT_apply]
  rfl

/-- One round over arbitrary operands: the positive part of `xe + a · w2ᵀ + b · w3ᵀ`, grouped from the left, is the
    specification's update. -/
theorem round_eq (xe a b : FVec Ideal S100000x128 .f32) (w2 w3 : FVec Ideal S128x128 .f32) :
    maximumf (addf (addf xe (val_main_v5 (F := Ideal) a w2)) (val_main_v5 (F := Ideal) b w3)) (val_main_call0_v0 (F := Ideal))
      = GnnSpec.update xe a b w2 w3 := by
  funext i
  rw [relu_apply, addf_apply, addf_apply, mulT_eq, mulT_eq]
  rfl

/-! ## The aggregation stages, unopened -/

/-- Round 1, incoming: the aggregation of the starting (zero) matrix. -/
theorem v16_eq (x1 : (⟨S2x1600000, .i32⟩ : BufTy).Contents (Elt Ideal)) :
    val_main_v16 (F := Ideal) x1 = aggIn x1 (val_main_v6 (F := Ideal)) := by
  simp only [val_main_v16, val_main_v14, val_main_cst_1, val_main_v15, val_main_v3, val_main_v2, val_main_v13, val_main_v12,
    val_main_v11, val_main_v8, val_main_v7, val_main_c, val_main_v10, val_main_v9, val_main_c_0, val_main_v1, val_main_v0,
    aggIn, agg, zeroMat, asColumn, wrapIdx, srcRow, dstRow]

/-- Round 1, outgoing. -/
theorem v26_eq (x1 : (⟨S2x1600000, .i32⟩ : BufTy).Contents (Elt Ideal)) :
    val_main_v26 (F := Ideal) x1 = aggOut x1 (val_main_v6 (F := Ideal)) := by
  simp only [val_main_v26, val_main_v24, val_main_cst_4, val_main_v25, val_main_v1, val_main_v0, val_main_v23, val_main_v22,
    val_main_v21, val_main_v18, val_main_v17, val_main_c_2, val_main_v20, val_main_v19, val_main_c_3, val_main_v3, val_main_v2,
    aggOut, agg, zeroMat, asColumn, wrapIdx, srcRow, dstRow]

/-- Round 2, incoming: the aggregation of the state after round 1. -/
theorem v43_eq (x0 : FVec Ideal S100000x128 .f32) (x1 : (⟨S2x1600000, .i32⟩ : BufTy).Contents (Elt Ideal)) (x2 x3 x4 : FVec Ideal S128x128 .f32) :
    val_main_v43 (F := Ideal) x0 x1 x2 x3 x4 = aggIn x1 (val_main_v33 (F := Ideal) x0 x1 x2 x3 x4) := by
  simp only [val_main_v43, val_main_v41, val_main_cst_7, val_main_v42, val_main_v3, val_main_v2, val_main_v40, val_main_v39,
    val_main_v38, val_main_v35, val_main_v34, val_main_c_5, val_main_v37, val_main_v36, val_main_c_6, val_main_v1, val_main_v0,
    aggIn, agg, zeroMat, asColumn, wrapIdx, srcRow, dstRow]

/-- Round 2, outgoing. -/
theorem v53_eq (x0 : FVec Ideal S100000x128 .f32) (x1 : (⟨S2x1600000, .i32⟩ : BufTy).Contents (Elt Ideal)) (x2 x3 x4 : FVec Ideal S128x128 .f32) :
    val_main_v53 (F := Ideal) x0 x1 x2 x3 x4 = aggOut x1 (val_main_v33 (F := Ideal) x0 x1 x2 x3 x4) := by
  simp only [val_main_v53, val_main_v51, val_main_cst_10, val_main_v52, val_main_v1, val_main_v0, val_main_v50, val_main_v49,
    val_main_v48, val_main_v45, val_main_v44, val_main_c_8, val_main_v47, val_main_v46, val_main_c_9, val_main_v3, val_main_v2,
    aggOut, agg, zeroMat, asColumn, wrapIdx, srcRow, dstRow]

/-- Round 3, incoming: the aggregation of the state after round 2. -/
theorem v70_eq (x0 : FVec Ideal S100000x128 .f32) (x1 : (⟨S2x1600000, .i32⟩ : BufTy).Contents (Elt Ideal)) (x2 x3 x4 : FVec Ideal S128x128 .f32) :
    val_main_v70 (F := Ideal) x0 x1 x2 x3 x4 = aggIn x1 (val_main_v60 (F := Ideal) x0 x1 x2 x3 x4) := by
  simp only [val_main_v70, val_main_v68, val_main_cst_13, val_main_v69, val_main_v3, val_main_v2, val_main_v67, val_main_v66,
    val_main_v65, val_main_v62, val_main_v61, val_main_c_11, val_main_v64, val_main_v63, val_main_c_12, val_main_v1, val_main_v0,
    aggIn, agg, zeroMat, asColumn, wrapIdx, srcRow, dstRow]

/-- Round 3, outgoing. -/
theorem v80_eq (x0 : FVec Ideal S100000x128 .f32) (x1 : (⟨S2x1600000, .i32⟩ : BufTy).Contents (Elt Ideal)) (x2 x3 x4 : FVec Ideal S128x128 .f32) :
    val_main_v80 (F := Ideal) x0 x1 x2 x3 x4 = aggOut x1 (val_main_v60 (F := Ideal) x0 x1 x2 x3 x4) := by
  simp only [val_main_v80, val_main_v78, val_main_cst_16, val_main_v79, val_main_v1, val_main_v0, val_main_v77, val_main_v76,
    val_main_v75, val_main_v72, val_main_v71, val_main_c_14, val_main_v74, val_main_v73, val_main_c_15, val_main_v3, val_main_v2,
    aggOut, agg, zeroMat, asColumn, wrapIdx, srcRow, dstRow]

/-! ## The three states -/

/-- After round 1 the state is the positive part of `xe`: both aggregations of the zero matrix are zero. -/
theorem v33_eq (x0 : FVec Ideal S100000x128 .f32) (x1 : (⟨S2x1600000, .i32⟩ : BufTy).Contents (Elt Ideal)) (x2 x3 x4 : FVec Ideal S128x128 .f32) :
    val_main_v33 (F := Ideal) x0 x1 x2 x3 x4 = GnnSpec.relu (GnnSpec.mulT x0 x2) := by
  have h28 : val_main_v28 (F := Ideal) x1 x3 = val_main_v5 (F := Ideal) (val_main_v16 (F := Ideal) x1) x3 := by
    simp only [val_main_v28, val_main_v27, val_main_v5, val_main_v4]
  have h31 : val_main_v31 (F := Ideal) x1 x4 = val_main_v5 (F := Ideal) (val_main_v26 (F := Ideal) x1) x4 := by
    simp only [val_main_v31, val_main_v30, val_main_v5, val_main_v4]
  unfold val_main_v33 val_main_v32 val_main_v29
  rw [h28, h31, v16_eq, v26_eq, start_zero, (agg_zero x1).1, (agg_zero x1).2, round_eq, GnnSpec.update_zero, mulT_eq]

/-- After round 2 the state is one update of the state after round 1. -/
theorem v60_eq (x0 : FVec Ideal S100000x128 .f32) (x1 : (⟨S2x1600000, .i32⟩ : BufTy).Contents (Elt Ideal)) (x2 x3 x4 : FVec Ideal S128x128 .f32) :
    val_main_v60 (F := Ideal) x0 x1 x2 x3 x4
      = GnnSpec.update (GnnSpec.mulT x0 x2) (aggIn x1 (val_main_v33 (F := Ideal) x0 x1 x2 x3 x4))
          (aggOut x1 (val_main_v33 (F := Ideal) x0 x1 x2 x3 x4)) x3 x4 := by
  have h55 : val_main_v55 (F := Ideal) x0 x1 x2 x3 x4
      = val_main_v5 (F := Ideal) (val_main_v43 (F := Ideal) x0 x1 x2 x3 x4) x3 := by
    simp only [val_main_v55, val_main_v54, val_main_v5, val_main_v4]
  have h58 : val_main_v58 (F := Ideal) x0 x1 x2 x3 x4
      = val_main_v5 (F := Ideal) (val_main_v53 (F := Ideal) x0 x1 x2 x3 x4) x4 := by
    simp only [val_main_v58, val_main_v57, val_main_v5, val_main_v4]
  have hz : val_main_call1_v0 (F := Ideal) = val_main_call0_v0 (F := Ideal) := by
    simp only [val_main_call1_v0, val_main_call1_cst, val_main_call0_v0, val_main_call0_cst]
  unfold val_main_v60 val_main_v59 val_main_v56
  rw [h55, h58, hz, v43_eq, v53_eq, round_eq, mulT_eq]

/-- After round 3 the state is one update of the state after round 2. -/
theorem v87_eq (x0 : FVec Ideal S100000x128 .f32) (x1 : (⟨S2x1600000, .i32⟩ : BufTy).Contents (Elt Ideal)) (x2 x3 x4 : FVec Ideal S128x128 .f32) :
    val_main_v87 (F := Ideal) x0 x1 x2 x3 x4
      = GnnSpec.update (GnnSpec.mulT x0 x2) (aggIn x1 (val_main_v60 (F := Ideal) x0 x1 x2 x3 x4))
          (aggOut x1 (val_main_v60 (F := Ideal) x0 x1 x2 x3 x4)) x3 x4 := by
  have h82 : val_main_v82 (F := Ideal) x0 x1 x2 x3 x4
      = val_main_v5 (F := Ideal) (val_main_v70 (F := Ideal) x0 x1 x2 x3 x4) x3 := by
    simp only [val_main_v82, val_main_v81, val_main_v5, val_main_v4]
  have h85 : val_main_v85 (F := Ideal) x0 x1 x2 x3 x4
      = val_main_v5 (F := Ideal) (val_main_v80 (F := Ideal) x0 x1 x2 x3 x4) x4 := by
    simp only [val_main_v85, val_main_v84, val_main_v5, val_main_v4]
  have hz : val_main_call2_v0 (F := Ideal) = val_main_call0_v0 (F := Ideal) := by
    simp only [val_main_call2_v0, val_main_call2_cst, val_main_call0_v0, val_main_call0_cst]
  unfold val_main_v87 val_main_v86 val_main_v83
  rw [h82, h85, hz, v70_eq, v80_eq, round_eq, mulT_eq]

/-- The reference's last state is the specification's state. -/
theorem state_eq (x0 : FVec Ideal S100000x128 .f32) (x1 : (⟨S2x1600000, .i32⟩ : BufTy).Contents (Elt Ideal)) (x2 x3 x4 : FVec Ideal S128x128 .f32) :
    val_main_v87 (F := Ideal) x0 x1 x2 x3 x4 = GnnSpec.state (aggIn x1) (aggOut x1) x0 x2 x3 x4 := by
  rw [v87_eq, v60_eq, v33_eq]
  rfl

end Cert.ReferenceIdeal.RefValue

end
-- ==== Proof.RefResult.lean ====
/-
  The reference computes the specification.

  The reference's result is the sum over the node axis of its last state, started from the constant 0.0; the last state
  is the specification's state (two updates on top of the positive part of `x · w1ᵀ`), so the result is the
  specification's `G` of the five argument arrays, with the two edge aggregations those of the reference's own edge
  array. From the reference's run this gives: every execution ends with the result buffer at `G` of the arguments, the
  arguments unchanged.
-/
import proofs.«149511_j13958643712644_2_alg».proof.Defs
import proofs.«149511_j13958643712644_2_alg».proof.Proof.Gen.ReferenceIdeal.Read
import proofs.«149511_j13958643712644_2_alg».proof.Proof.Gen.Pre_finite_inputs
import proofs.«149511_j13958643712644_2_alg».proof.Proof.Spec
import proofs.«149511_j13958643712644_2_alg».proof.Proof.RefAgg
import proofs.«149511_j13958643712644_2_alg».proof.Proof.RefStages
import proofs.«149511_j13958643712644_2_alg».proof.Proof.RefRounds

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-- The reference's result, as a function of the five argument arrays, is the specification's `G`. -/
theorem value_eq (x0 : FVec Ideal S100000x128 .f32) (x1 : (⟨S2x1600000, .i32⟩ : BufTy).Contents (Elt Ideal)) (x2 x3 x4 : FVec Ideal S128x128 .f32) :
    val_main_v88 (F := Ideal) x0 x1 x2 x3 x4 = GnnSpec.G (aggIn x1) (aggOut x1) x0 x2 x3 x4 := by
  funext j
  rw [colSum_apply, state_eq]
  rfl

/-- The result term of the reference's run, on core `c` from the memory `m`, is `G` of the arguments' contents. -/
theorem result_eq (m : (ℓ : Loc nD τ sig) → Buf (Elt Ideal) ℓ) (c : Dev nD) :
    Cert.ReferenceIdeal.Value.res_main_v88 (F := Ideal) m c
      = GnnSpec.G (aggIn (m ((c.tc : Thread nD τ).loc main_arg1))) (aggOut (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4)) := by
  rw [val_main_v88_eq]
  exact value_eq _ _ _ _ _

/-- Every weakly fair execution of the reference terminates with its result at `G` of the arguments and the arguments
    unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v88)
          = GnnSpec.G (aggIn (m ((c.tc : Thread nD τ).loc main_arg1))) (aggOut (m ((c.tc : Thread nD τ).loc main_arg1)))
              (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).1.trans (result_eq m c), (h c).2⟩)
    (Cert.ReferenceIdeal.Value.run (F := Ideal) m ρ)

/-- The reference runs to the end, faults nowhere and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.RefBridge.lean ====
/-
  The kernel program's edge aggregation is the reference's.

  Both programs form the edge sums with the same host operations: the two rows of the edge array cut out by a slice and a
  reshape; the source index normalised (100000 added where it is negative); the rows of the state gathered at those
  indices; the gathered rows scatter-added into the zero matrix at the target indices. Each program names its own shape
  records for the gather and the scatter, field for field the same, and the kernel program widens the gathered rows from
  the narrow float format to the wide one, which on extended reals is the identity. So the kernel program's composite,
  on the rows of an edge array `e`, is `aggIn e`, and with the rows exchanged `aggOut e`.
-/
import proofs.«149511_j13958643712644_2_alg».proof.Proof.KAgg
import proofs.«149511_j13958643712644_2_alg».proof.Proof.RefAgg

noncomputable section

namespace Cert.Bridge

open Idealize.ShloMosaic

/-- The two programs name one gather: rows of a [100000, 128] matrix at a column of 1600000 indices. -/
theorem gather_rec_eq :
    Cert.KernelIdeal.gather_S100000x128_S1600000x1_S1600000x128_1_0_n_n_0_1_1128
      = Cert.ReferenceIdeal.gather_S100000x128_S1600000x1_S1600000x128_1_0_n_n_0_1_1128 := rfl

/-- The two programs name one scatter: rows added into a [100000, 128] matrix at a column of 1600000 indices. -/
theorem scatter_rec_eq :
    Cert.KernelIdeal.scatter_S100000x128_S1600000x1_S1600000x128_1_0_0_1
      = Cert.ReferenceIdeal.scatter_S100000x128_S1600000x1_S1600000x128_1_0_0_1 := rfl

/-- A widening of the float format is the identity on extended reals. -/
theorem extf_id {s : Shape} (a : FVec Ideal s .bf16) (h : FTy.bits .bf16 < FTy.bits .f32) :
    extf (F := Ideal) .f32 a h = a := rfl

/-- Both programs cut the same two rows out of the edge array. -/
theorem row0_eq (e : (⟨Cert.KernelIdeal.S2x1600000, .i32⟩ : BufTy).Contents (Elt Ideal)) : Cert.KernelIdeal.Hand.rowK0 e = Cert.ReferenceIdeal.RefValue.srcRow e := by
  unfold Cert.KernelIdeal.Hand.rowK0 Cert.ReferenceIdeal.RefValue.srcRow
  rfl
theorem row1_eq (e : (⟨Cert.KernelIdeal.S2x1600000, .i32⟩ : BufTy).Contents (Elt Ideal)) : Cert.KernelIdeal.Hand.rowK1 e = Cert.ReferenceIdeal.RefValue.dstRow e := by
  unfold Cert.KernelIdeal.Hand.rowK1 Cert.ReferenceIdeal.RefValue.dstRow
  rfl

/-- The kernel program's edge sum is the reference's: the same gather at the same normalised indices (the widening of
    the gathered rows changes nothing on extended reals), scatter-added into the same zero matrix at the same rows. -/
theorem aggK_eq_agg (from_ to_ : (⟨Cert.KernelIdeal.S1600000, .i32⟩ : BufTy).Contents (Elt Ideal))
    (mu : (⟨Cert.KernelIdeal.S100000x128, .bf16⟩ : BufTy).Contents (Elt Ideal)) :
    Cert.KernelIdeal.Hand.aggK from_ to_ mu = Cert.ReferenceIdeal.RefValue.agg from_ to_ mu := by
  unfold Cert.KernelIdeal.Hand.aggK Cert.ReferenceIdeal.RefValue.agg Cert.ReferenceIdeal.RefValue.zeroMat Cert.ReferenceIdeal.RefValue.asColumn Cert.ReferenceIdeal.RefValue.wrapIdx
  rw [extf_id, gather_rec_eq, scatter_rec_eq]

/-- Incoming edges: the kernel program's composite on the rows of `e` is the reference's `aggIn e`. -/
theorem aggK_in (e : (⟨Cert.KernelIdeal.S2x1600000, .i32⟩ : BufTy).Contents (Elt Ideal))
    (mu : (⟨Cert.KernelIdeal.S100000x128, .bf16⟩ : BufTy).Contents (Elt Ideal)) :
    Cert.KernelIdeal.Hand.aggK (Cert.KernelIdeal.Hand.rowK0 e) (Cert.KernelIdeal.Hand.rowK1 e) mu = Cert.ReferenceIdeal.RefValue.aggIn e mu := by
  rw [aggK_eq_agg, row0_eq, row1_eq]
  rfl

/-- Outgoing edges: with the two rows exchanged it is the reference's `aggOut e`. -/
theorem aggK_out (e : (⟨Cert.KernelIdeal.S2x1600000, .i32⟩ : BufTy).Contents (Elt Ideal))
    (mu : (⟨Cert.KernelIdeal.S100000x128, .bf16⟩ : BufTy).Contents (Elt Ideal)) :
    Cert.KernelIdeal.Hand.aggK (Cert.KernelIdeal.Hand.rowK1 e) (Cert.KernelIdeal.Hand.rowK0 e) mu = Cert.ReferenceIdeal.RefValue.aggOut e mu := by
  rw [aggK_eq_agg, row0_eq, row1_eq]
  rfl

end Cert.Bridge

end
-- ==== Proof.Alg.lean ====
/-
  The two idealized programs compute one function. The kernel program's result is the specification's `G` at its own two
  aggregation maps (the fold of the run); those maps are the reference's (the same gather and scatter-add, the widening of
  the gathered rows being the identity on the extended reals); and the reference's result is `G` at its maps and
  arguments. From memories that agree on the arguments the two results are therefore equal, entry by entry.
-/
import proofs.«149511_j13958643712644_2_alg».proof.Defs
import proofs.«149511_j13958643712644_2_alg».proof.Proof.KFold
import proofs.«149511_j13958643712644_2_alg».proof.Proof.KRun
import proofs.«149511_j13958643712644_2_alg».proof.Proof.RefResult
import proofs.«149511_j13958643712644_2_alg».proof.Proof.RefBridge

noncomputable section

namespace Cert.Proof.GnnClaims

open Idealize.ShloMosaic Idealize.ShloMosaic.TcCoe Idealize.SL.Sem
open Cert.ReferenceIdeal.RefValue (aggIn aggOut)

/-- The word-level program runs to the end, faults nowhere and leaves its arguments as launched. -/
theorem frame_p : Cert.frame_Kernel := fun m ρ _ => Cert.Kernel.Hand.frame (F := Bits) m ρ
/-- So does the idealized program. -/
theorem frame_pi : Cert.frame_KernelIdeal := fun m ρ _ => Cert.KernelIdeal.Hand.frame (F := Ideal) m ρ
/-- So does the reference: its run with the result dropped. -/
theorem frame_ri : Cert.frame_ReferenceIdeal := Cert.ReferenceIdeal.RefValue.frame_ri

/-- The ideal pass rewrote nothing. -/
theorem preserves : Cert.preserves_Kernel_KernelIdeal := trivial

open Cert.KernelIdeal in
/-- The idealized kernel program's run with its result named by the specification at the reference's aggregation maps. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52)
        = Cert.GnnSpec.G (aggIn (m ((c.tc : Thread nD τ).loc main_arg1))) (aggOut (m ((c.tc : Thread nD τ).loc main_arg1)))
            (m ((c.tc : Thread nD τ).loc main_arg0)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans ((Cert.KernelIdeal.Hand.kernel_value m ρ c).trans (by
      rw [show Cert.KernelIdeal.Hand.aggK (Cert.KernelIdeal.Hand.rowK0 (Cert.KernelIdeal.Hand.aE m c)) (Cert.KernelIdeal.Hand.rowK1 (Cert.KernelIdeal.Hand.aE m c))
            = aggIn (Cert.KernelIdeal.Hand.aE m c) from funext fun mu => Cert.Bridge.aggK_in _ mu,
          show Cert.KernelIdeal.Hand.aggK (Cert.KernelIdeal.Hand.rowK1 (Cert.KernelIdeal.Hand.aE m c)) (Cert.KernelIdeal.Hand.rowK0 (Cert.KernelIdeal.Hand.aE m c))
            = aggOut (Cert.KernelIdeal.Hand.aE m c) from funext fun mu => Cert.Bridge.aggK_out _ mu])), (h c).2⟩)
    (Cert.KernelIdeal.Hand.run_result (F := Ideal) m ρ)

/-- From memories agreeing on the arguments both idealized programs run to the end with equal results and unchanged arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2]

end Cert.Proof.GnnClaims

end
-- ==== Proof.lean ====
/-
  Every conjunct of the claim, for a message-passing network over 100000 nodes with 128 features and 1600000 directed edges.

  The kernel program embeds the node features (`xe = x · w1ᵀ`), takes the positive part as the first state, and twice
  replaces the state by `max(xe + aggIn(mu) · w2ᵀ + aggOut(mu) · w3ᵀ, 0)`, where `aggIn` and `aggOut` sum, over the edges
  into and out of each node, the neighbour's row of the state; the result is the column sums of the last state. The
  reference starts from the zero state and performs three such rounds. Over the extended reals the two agree: the zero
  state aggregates to zero, zero times anything is zero, so the reference's first round is the positive part of `xe`;
  from there on the two programs apply the same operations, with the sums grouped the same way; and summing the rows
  block by block, as the last kernel call does, is summing them all, by associativity and commutativity of addition.

  The three frames: each kernel call is entered with every buffer at known contents and left with its result arrays
  holding what its grid points wrote and every other buffer untouched; the host lines between calls write only their own
  results; no one writes an argument.
-/
import proofs.«149511_j13958643712644_2_alg».proof.Defs
import proofs.«149511_j13958643712644_2_alg».proof.Proof.Gen.Kernel
import proofs.«149511_j13958643712644_2_alg».proof.Proof.Gen.KernelIdeal
import proofs.«149511_j13958643712644_2_alg».proof.Proof.Gen.ReferenceIdeal
import proofs.«149511_j13958643712644_2_alg».proof.Proof.Gen.Pre_finite_inputs
import proofs.«149511_j13958643712644_2_alg».proof.Proof.Alg
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GnnClaims.frame_p, GnnClaims.frame_pi, GnnClaims.frame_ri, GnnClaims.preserves, GnnClaims.algebraic⟩

end Cert.Proof

end
